-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S50257 : Shape := ⟨1, ![50257]⟩
abbrev S50257x1024 : Shape := ⟨2, ![50257, 1024]⟩
abbrev S8x32x1024 : Shape := ⟨3, ![8, 32, 1024]⟩
abbrev S8x1024x32 : Shape := ⟨3, ![8, 1024, 32]⟩
abbrev S_ : Shape := ⟨0, ![]⟩

class Facts : Prop where
  bcast_S_S50257x1024 : S_.BroadcastsInDim S50257x1024 (![] : Fin 0 → Fin S50257x1024.rank)
  reducesTo_S50257x1024_S_d0_1 : S50257x1024.ReducesTo [0, 1] S_
  h_S_ : 0 < S_.numel
  bcast_S_S8x32x1024 : S_.BroadcastsInDim S8x32x1024 (![] : Fin 0 → Fin S8x32x1024.rank)
  reducesTo_S8x32x1024_S_d0_1_2 : S8x32x1024.ReducesTo [0, 1, 2] S_
  bcast_S_S8x1024x32 : S_.BroadcastsInDim S8x1024x32 (![] : Fin 0 → Fin S8x1024x32.rank)
  reducesTo_S8x1024x32_S_d0_1_2 : S8x1024x32.ReducesTo [0, 1, 2] S_

variable [Facts]

def fn {F : FTy → Type} [FloatOps F] (main_arg0 : IVec S4x4096 32) (main_arg1 : IVec S50257 32) (main_arg2 : FVec F S50257x1024 .f32) (main_arg3 : FVec F S8x32x1024 .f32) (main_arg4 : FVec F S8x1024x32 .f32) : IVec S_ 1 :=
  let main_v0 : FVec F S50257x1024 .f32 := Host.absf main_arg2
  let main_cst : FVec F S_ .f32 := constant S_ .f32 0x7F800000#32
  let main_v1 : FVec F S50257x1024 .f32 := broadcastInDim S50257x1024 ![] bcast_S_S50257x1024 main_cst
  let main_v2 : IVec S50257x1024 1 := cmpf .olt main_v0 main_v1
  let main_c : IVec S_ 1 := constantI S_ 1 1#1
  let main_v3 : IVec S_ 1 := (fun x v => Host.reduce IntOp.andi x v reducesTo_S50257x1024_S_d0_1 h_S_) main_v2 main_c
  let main_v4 : FVec F S8x32x1024 .f32 := Host.absf main_arg3
  let main_cst_0 : FVec F S_ .f32 := constant S_ .f32 0x7F800000#32
  let main_v5 : FVec F S8x32x1024 .f32 := broadcastInDim S8x32x1024 ![] bcast_S_S8x32x1024 main_cst_0
  let main_v6 : IVec S8x32x1024 1 := cmpf .olt main_v4 main_v5
  let main_c_1 : IVec S_ 1 := constantI S_ 1 1#1
  let main_v7 : IVec S_ 1 := (fun x v => Host.reduce IntOp.andi x v reducesTo_S8x32x1024_S_d0_1_2 h_S_) main_v6 main_c_1
  let main_v8 : IVec S_ 1 := andi main_v3 main_v7
  let main_v9 : FVec F S8x1024x32 .f32 := Host.absf main_arg4
  let main_cst_2 : FVec F S_ .f32 := constant S_ .f32 0x7F800000#32
  let main_v10 : FVec F S8x1024x32 .f32 := broadcastInDim S8x1024x32 ![] bcast_S_S8x1024x32 main_cst_2
  let main_v11 : IVec S8x1024x32 1 := cmpf .olt main_v9 main_v10
  let main_c_3 : IVec S_ 1 := constantI S_ 1 1#1
  let main_v12 : IVec S_ 1 := (fun x v => Host.reduce IntOp.andi x v reducesTo_S8x1024x32_S_d0_1_2 h_S_) main_v11 main_c_3
  let main_v13 : IVec S_ 1 := andi main_v8 main_v12
  main_v13
-- ==== Kernel.lean ====
abbrev S4x4096 : Shape := ⟨2, ![4, 4096]⟩
abbrev S50257 : Shape := ⟨1, ![50257]⟩
abbrev S50257x1024 : Shape := ⟨2, ![50257, 1024]⟩
abbrev S8x32x1024 : Shape := ⟨3, ![8, 32, 1024]⟩
abbrev S8x1024x32 : Shape := ⟨3, ![8, 1024, 32]⟩
abbrev S_ : Shape := ⟨0, ![]⟩
abbrev S4x4096x1 : Shape := ⟨3, ![4, 4096, 1]⟩
abbrev S4x4096x1024 : Shape := ⟨3, ![4, 4096, 1024]⟩
abbrev S16384x1024 : Shape := ⟨2, ![16384, 1024]⟩
abbrev S16384x1 : Shape := ⟨2, ![16384, 1]⟩
abbrev S1024x8x32 : Shape := ⟨3, ![1024, 8, 32]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 33
  | .vmem => 8
  | .smem => 0
  | _ => 0

abbrev bufTy : (tb : Table) → Fin (tcTables nBuf tb) → BufTy
  | .hbm, ⟨0, _⟩ => ⟨S4x4096, .i32⟩
  | .hbm, ⟨1, _⟩ => ⟨S50257, .i32⟩
  | .hbm, ⟨2, _⟩ => ⟨S50257x1024, .f32⟩
  | .hbm, ⟨3, _⟩ => ⟨S8x32x1024, .f32⟩
  | .hbm, ⟨4, _⟩ => ⟨S8x1024x32, .f32⟩
  | .hbm, ⟨5, _⟩ => ⟨S_, .i32⟩
  | .hbm, ⟨6, _⟩ => ⟨S4x4096, .i32⟩
  | .hbm, ⟨7, _⟩ => ⟨S4x4096, .i1⟩
  | .hbm, ⟨8, _⟩ => ⟨S_, .i32⟩
  | .hbm, ⟨9, _⟩ => ⟨S4x4096, .i32⟩
  | .hbm, ⟨10, _⟩ => ⟨S4x4096, .i32⟩
  | .hbm, ⟨11, _⟩ => ⟨S4x4096, .i32⟩
  | .hbm, ⟨12, _⟩ => ⟨S4x4096x1, .i32⟩
  | .hbm, ⟨13, _⟩ => ⟨S4x4096x1024, .f32⟩
  | .hbm, ⟨14, _⟩ => ⟨S_, .i32⟩
  | .hbm, ⟨15, _⟩ => ⟨S4x4096, .i32⟩
  | .hbm, ⟨16, _⟩ => ⟨S4x4096, .i1⟩
  | .hbm, ⟨17, _⟩ => ⟨S_, .i32⟩
  | .hbm, ⟨18, _⟩ => ⟨S4x4096, .i32⟩
  | .hbm, ⟨19, _⟩ => ⟨S4x4096, .i32⟩
  | .hbm, ⟨20, _⟩ => ⟨S4x4096, .i32⟩
  | .hbm, ⟨21, _⟩ => ⟨S4x4096x1, .i32⟩
  | .hbm, ⟨22, _⟩ => ⟨S4x4096, .i32⟩
  | .hbm, ⟨23, _⟩ => ⟨S16384x1024, .f32⟩
  | .hbm, ⟨24, _⟩ => ⟨S16384x1, .i32⟩
  | .hbm, ⟨25, _⟩ => ⟨S1024x8x32, .f32⟩
  | .hbm, ⟨26, _⟩ => ⟨S1024x256, .f32⟩
  | .hbm, ⟨27, _⟩ => ⟨S1024x256, .bf16⟩
  | .hbm, ⟨28, _⟩ => ⟨S8x32x1024, .f32⟩
  | .hbm, ⟨29, _⟩ => ⟨S256x1024, .f32⟩
  | .hbm, ⟨30, _⟩ => ⟨S256x1024, .bf16⟩
  | .hbm, ⟨31, _⟩ => ⟨S16384x1024, .f32⟩
  | .hbm, ⟨32, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x256, .bf16⟩
  | .local _ .vmem, ⟨5, _⟩ => ⟨S256x1024, .bf16⟩
  | .local _ .vmem, ⟨6, _⟩ => ⟨S1024x1024, .f32⟩
  | .local _ .vmem, ⟨7, _⟩ => ⟨S1024x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  shapeCasts_S4x4096x1024_S16384x1024 : S4x4096x1024.ShapeCasts S16384x1024
  shapeCasts_S4x4096_S16384x1 : S4x4096.ShapeCasts S16384x1
  transposes_S8x32x1024_S1024x8x32_2_0_1 : S8x32x1024.Transposes [2, 0, 1] S1024x8x32
  shapeCasts_S1024x8x32_S1024x256 : S1024x8x32.ShapeCasts S1024x256
  bitsLt_bf16_f32 : FTy.bits .bf16 < FTy.bits .f32
  transposes_S8x1024x32_S8x32x1024_0_2_1 : S8x1024x32.Transposes [0, 2, 1] S8x32x1024
  shapeCasts_S8x32x1024_S256x1024 : S8x32x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x256_d1_w32 : S1024x256.Iotas .tc 32 [1]
  natLt_1_32 : 1 < 32
  broadcasts_S1024x1_S1024x256 : S1024x1.Broadcasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  shapeCasts_S16384x1024_S4x4096x1024 : S16384x1024.ShapeCasts S4x4096x1024
  gather_S50257x1024_S4x4096x1_S4x4096x1024_2_0_n_n_0_2_11024_wf : GatherDims.WF S50257x1024 S4x4096x1 S4x4096x1024 [2] [0] [] [0] [] 2 ![1, 1024]
  gather_S50257_S4x4096x1_S4x4096_n_0_n_n_0_2_1_wf : GatherDims.WF S50257 S4x4096x1 S4x4096 [] [0] [] [0] [] 2 ![1]
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf
def gather_S50257_S4x4096x1_S4x4096_n_0_n_n_0_2_1 : GatherDims S50257 S4x4096x1 S4x4096 where
  offsetDims := []
  collapsedSliceDims := [0]
  operandBatchingDims := []
  startIndicesBatchingDims := []
  startIndexMap := [0]
  indexVectorDim := 2
  sliceSizes := ![1]
  wf := gather_S50257_S4x4096x1_S4x4096_n_0_n_n_0_2_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S50257 : Shape := ⟨1, ![50257]⟩
abbrev S50257x1024 : Shape := ⟨2, ![50257, 1024]⟩
abbrev S8x32x1024 : Shape := ⟨3, ![8, 32, 1024]⟩
abbrev S8x1024x32 : Shape := ⟨3, ![8, 1024, 32]⟩
abbrev S_ : Shape := ⟨0, ![]⟩
abbrev S4x4096x1 : Shape := ⟨3, ![4, 4096, 1]⟩
abbrev S4x4096x1024 : Shape := ⟨3, ![4, 4096, 1024]⟩
abbrev S1x32x1024 : Shape := ⟨3, ![1, 32, 1024]⟩
abbrev S32x1024 : Shape := ⟨2, ![32, 1024]⟩
abbrev S4x4096x32 : Shape := ⟨3, ![4, 4096, 32]⟩
abbrev S1x1024x32 : Shape := ⟨3, ![1, 1024, 32]⟩
abbrev S1024x32 : Shape := ⟨2, ![1024, 32]⟩

abbrev nBuf : Space → Nat
  | .hbm => 159
  | .vmem => 0
  | .smem => 0
  | _ => 0

abbrev hbmTy0_0 (i : Nat) : BufTy := match i % 128 with
  | 0 => ⟨S4x4096, .i32⟩
  | 1 => ⟨S50257, .i32⟩
  | 2 => ⟨S50257x1024, .f32⟩
  | 3 => ⟨S8x32x1024, .f32⟩
  | 4 => ⟨S8x1024x32, .f32⟩
  | 5 => ⟨S_, .i32⟩
  | 6 => ⟨S4x4096, .i32⟩
  | 7 => ⟨S4x4096, .i1⟩
  | 8 => ⟨S_, .i32⟩
  | 9 => ⟨S4x4096, .i32⟩
  | 10 => ⟨S4x4096, .i32⟩
  | 11 => ⟨S4x4096, .i32⟩
  | 12 => ⟨S4x4096x1, .i32⟩
  | 13 => ⟨S4x4096x1024, .f32⟩
  | 14 => ⟨S_, .i32⟩
  | 15 => ⟨S4x4096, .i32⟩
  | 16 => ⟨S4x4096, .i1⟩
  | 17 => ⟨S_, .i32⟩
  | 18 => ⟨S4x4096, .i32⟩
  | 19 => ⟨S4x4096, .i32⟩
  | 20 => ⟨S4x4096, .i32⟩
  | 21 => ⟨S4x4096x1, .i32⟩
  | 22 => ⟨S4x4096, .i32⟩
  | 23 => ⟨S_, .i32⟩
  | 24 => ⟨S4x4096, .i32⟩
  | 25 => ⟨S4x4096, .i1⟩
  | 26 => ⟨S4x4096x1, .i1⟩
  | 27 => ⟨S4x4096x1, .f32⟩
  | 28 => ⟨S1x32x1024, .f32⟩
  | 29 => ⟨S32x1024, .f32⟩
  | 30 => ⟨S4x4096x32, .f32⟩
  | 31 => ⟨S1x1024x32, .f32⟩
  | 32 => ⟨S1024x32, .f32⟩
  | 33 => ⟨S4x4096x1024, .f32⟩
  | 34 => ⟨S_, .f32⟩
  | 35 => ⟨S4x4096x1024, .f32⟩
  | 36 => ⟨S4x4096x1024, .f32⟩
  | 37 => ⟨S4x4096x1024, .f32⟩
  | 38 => ⟨S4x4096x1024, .f32⟩
  | 39 => ⟨S4x4096x1024, .f32⟩
  | 40 => ⟨S_, .i32⟩
  | 41 => ⟨S4x4096, .i32⟩
  | 42 => ⟨S4x4096, .i1⟩
  | 43 => ⟨S4x4096x1, .i1⟩
  | 44 => ⟨S4x4096x1, .f32⟩
  | 45 => ⟨S1x32x1024, .f32⟩
  | 46 => ⟨S32x1024, .f32⟩
  | 47 => ⟨S4x4096x32, .f32⟩
  | 48 => ⟨S1x1024x32, .f32⟩
  | 49 => ⟨S1024x32, .f32⟩
  | 50 => ⟨S4x4096x1024, .f32⟩
  | 51 => ⟨S_, .f32⟩
  | 52 => ⟨S4x4096x1024, .f32⟩
  | 53 => ⟨S4x4096x1024, .f32⟩
  | 54 => ⟨S4x4096x1024, .f32⟩
  | 55 => ⟨S4x4096x1024, .f32⟩
  | 56 => ⟨S4x4096x1024, .f32⟩
  | 57 => ⟨S_, .i32⟩
  | 58 => ⟨S4x4096, .i32⟩
  | 59 => ⟨S4x4096, .i1⟩
  | 60 => ⟨S4x4096x1, .i1⟩
  | 61 => ⟨S4x4096x1, .f32⟩
  | 62 => ⟨S1x32x1024, .f32⟩
  | 63 => ⟨S32x1024, .f32⟩
  | 64 => ⟨S4x4096x32, .f32⟩
  | 65 => ⟨S1x1024x32, .f32⟩
  | 66 => ⟨S1024x32, .f32⟩
  | 67 => ⟨S4x4096x1024, .f32⟩
  | 68 => ⟨S_, .f32⟩
  | 69 => ⟨S4x4096x1024, .f32⟩
  | 70 => ⟨S4x4096x1024, .f32⟩
  | 71 => ⟨S4x4096x1024, .f32⟩
  | 72 => ⟨S4x4096x1024, .f32⟩
  | 73 => ⟨S4x4096x1024, .f32⟩
  | 74 => ⟨S_, .i32⟩
  | 75 => ⟨S4x4096, .i32⟩
  | 76 => ⟨S4x4096, .i1⟩
  | 77 => ⟨S4x4096x1, .i1⟩
  | 78 => ⟨S4x4096x1, .f32⟩
  | 79 => ⟨S1x32x1024, .f32⟩
  | 80 => ⟨S32x1024, .f32⟩
  | 81 => ⟨S4x4096x32, .f32⟩
  | 82 => ⟨S1x1024x32, .f32⟩
  | 83 => ⟨S1024x32, .f32⟩
  | 84 => ⟨S4x4096x1024, .f32⟩
  | 85 => ⟨S_, .f32⟩
  | 86 => ⟨S4x4096x1024, .f32⟩
  | 87 => ⟨S4x4096x1024, .f32⟩
  | 88 => ⟨S4x4096x1024, .f32⟩
  | 89 => ⟨S4x4096x1024, .f32⟩
  | 90 => ⟨S4x4096x1024, .f32⟩
  | 91 => ⟨S_, .i32⟩
  | 92 => ⟨S4x4096, .i32⟩
  | 93 => ⟨S4x4096, .i1⟩
  | 94 => ⟨S4x4096x1, .i1⟩
  | 95 => ⟨S4x4096x1, .f32⟩
  | 96 => ⟨S1x32x1024, .f32⟩
  | 97 => ⟨S32x1024, .f32⟩
  | 98 => ⟨S4x4096x32, .f32⟩
  | 99 => ⟨S1x1024x32, .f32⟩
  | 100 => ⟨S1024x32, .f32⟩
  | 101 => ⟨S4x4096x1024, .f32⟩
  | 102 => ⟨S_, .f32⟩
  | 103 => ⟨S4x4096x1024, .f32⟩
  | 104 => ⟨S4x4096x1024, .f32⟩
  | 105 => ⟨S4x4096x1024, .f32⟩
  | 106 => ⟨S4x4096x1024, .f32⟩
  | 107 => ⟨S4x4096x1024, .f32⟩
  | 108 => ⟨S_, .i32⟩
  | 109 => ⟨S4x4096, .i32⟩
  | 110 => ⟨S4x4096, .i1⟩
  | 111 => ⟨S4x4096x1, .i1⟩
  | 112 => ⟨S4x4096x1, .f32⟩
  | 113 => ⟨S1x32x1024, .f32⟩
  | 114 => ⟨S32x1024, .f32⟩
  | 115 => ⟨S4x4096x32, .f32⟩
  | 116 => ⟨S1x1024x32, .f32⟩
  | 117 => ⟨S1024x32, .f32⟩
  | 118 => ⟨S4x4096x1024, .f32⟩
  | 119 => ⟨S_, .f32⟩
  | 120 => ⟨S4x4096x1024, .f32⟩
  | 121 => ⟨S4x4096x1024, .f32⟩
  | 122 => ⟨S4x4096x1024, .f32⟩
  | 123 => ⟨S4x4096x1024, .f32⟩
  | 124 => ⟨S4x4096x1024, .f32⟩
  | 125 => ⟨S_, .i32⟩
  | 126 => ⟨S4x4096, .i32⟩
  | 127 => ⟨S4x4096, .i1⟩
  | _ => ⟨S4x4096, .i32⟩

abbrev hbmTy0_1 (i : Nat) : BufTy := match i % 128 with
  | 0 => ⟨S4x4096x1, .i1⟩
  | 1 => ⟨S4x4096x1, .f32⟩
  | 2 => ⟨S1x32x1024, .f32⟩
  | 3 => ⟨S32x1024, .f32⟩
  | 4 => ⟨S4x4096x32, .f32⟩
  | 5 => ⟨S1x1024x32, .f32⟩
  | 6 => ⟨S1024x32, .f32⟩
  | 7 => ⟨S4x4096x1024, .f32⟩
  | 8 => ⟨S_, .f32⟩
  | 9 => ⟨S4x4096x1024, .f32⟩
  | 10 => ⟨S4x4096x1024, .f32⟩
  | 11 => ⟨S4x4096x1024, .f32⟩
  | 12 => ⟨S4x4096x1024, .f32⟩
  | 13 => ⟨S4x4096x1024, .f32⟩
  | 14 => ⟨S_, .i32⟩
  | 15 => ⟨S4x4096, .i32⟩
  | 16 => ⟨S4x4096, .i1⟩
  | 17 => ⟨S4x4096x1, .i1⟩
  | 18 => ⟨S4x4096x1, .f32⟩
  | 19 => ⟨S1x32x1024, .f32⟩
  | 20 => ⟨S32x1024, .f32⟩
  | 21 => ⟨S4x4096x32, .f32⟩
  | 22 => ⟨S1x1024x32, .f32⟩
  | 23 => ⟨S1024x32, .f32⟩
  | 24 => ⟨S4x4096x1024, .f32⟩
  | 25 => ⟨S_, .f32⟩
  | 26 => ⟨S4x4096x1024, .f32⟩
  | 27 => ⟨S4x4096x1024, .f32⟩
  | 28 => ⟨S4x4096x1024, .f32⟩
  | 29 => ⟨S4x4096x1024, .f32⟩
  | 30 => ⟨S4x4096x1024, .f32⟩
  | _ => ⟨S4x4096, .i32⟩

abbrev hbmTy (i : Nat) : BufTy := match i / 128 with
  | 0 => hbmTy0_0 i
  | 1 => hbmTy0_1 i
  | _ => ⟨S4x4096, .i32⟩

abbrev bufTy : (tb : Table) → Fin (tcTables nBuf tb) → BufTy
  | .hbm, ⟨i, _⟩ => hbmTy i
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_12 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_13 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_c_14 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_c_16 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_cst_17 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  slices_S8x32x1024_S1x32x1024_0_0_0 : S8x32x1024.Slices ![0, 0, 0] S1x32x1024
  shapeCasts_S1x32x1024_S32x1024 : S1x32x1024.ShapeCasts S32x1024
  slices_S8x1024x32_S1x1024x32_0_0_0 : S8x1024x32.Slices ![0, 0, 0] S1x1024x32
  shapeCasts_S1x1024x32_S1024x32 : S1x1024x32.ShapeCasts S1024x32
  bcast_S_S4x4096x1024 : S_.BroadcastsInDim S4x4096x1024 (![] : Fin 0 → Fin S4x4096x1024.rank)
  bcast_S4x4096x1_S4x4096x1024_0_1_2 : S4x4096x1.BroadcastsInDim S4x4096x1024 (![0, 1, 2] : Fin 3 → Fin S4x4096x1024.rank)
  slices_S8x32x1024_S1x32x1024_1_0_0 : S8x32x1024.Slices ![1, 0, 0] S1x32x1024
  slices_S8x1024x32_S1x1024x32_1_0_0 : S8x1024x32.Slices ![1, 0, 0] S1x1024x32
  slices_S8x32x1024_S1x32x1024_2_0_0 : S8x32x1024.Slices ![2, 0, 0] S1x32x1024
  slices_S8x1024x32_S1x1024x32_2_0_0 : S8x1024x32.Slices ![2, 0, 0] S1x1024x32
  slices_S8x32x1024_S1x32x1024_3_0_0 : S8x32x1024.Slices ![3, 0, 0] S1x32x1024
  slices_S8x1024x32_S1x1024x32_3_0_0 : S8x1024x32.Slices ![3, 0, 0] S1x1024x32
  slices_S8x32x1024_S1x32x1024_4_0_0 : S8x32x1024.Slices ![4, 0, 0] S1x32x1024
  slices_S8x1024x32_S1x1024x32_4_0_0 : S8x1024x32.Slices ![4, 0, 0] S1x1024x32
  slices_S8x32x1024_S1x32x1024_5_0_0 : S8x32x1024.Slices ![5, 0, 0] S1x32x1024
  slices_S8x1024x32_S1x1024x32_5_0_0 : S8x1024x32.Slices ![5, 0, 0] S1x1024x32
  slices_S8x32x1024_S1x32x1024_6_0_0 : S8x32x1024.Slices ![6, 0, 0] S1x32x1024
  slices_S8x1024x32_S1x1024x32_6_0_0 : S8x1024x32.Slices ![6, 0, 0] S1x1024x32
  slices_S8x32x1024_S1x32x1024_7_0_0 : S8x32x1024.Slices ![7, 0, 0] S1x32x1024
  slices_S8x1024x32_S1x1024x32_7_0_0 : S8x1024x32.Slices ![7, 0, 0] S1x1024x32
  gather_S50257x1024_S4x4096x1_S4x4096x1024_2_0_n_n_0_2_11024_wf : GatherDims.WF S50257x1024 S4x4096x1 S4x4096x1024 [2] [0] [] [0] [] 2 ![1, 1024]
  gather_S50257_S4x4096x1_S4x4096_n_0_n_n_0_2_1_wf : GatherDims.WF S50257 S4x4096x1 S4x4096 [] [0] [] [0] [] 2 ![1]
  dot_S4x4096x1024_S32x1024_S4x4096x32_2_1_01_0_n_n_wf : DotDims.WF S4x4096x1024 S32x1024 S4x4096x32 [2] [1] [0, 1] [0] [] []
  dot_S4x4096x32_S1024x32_S4x4096x1024_2_1_01_0_n_n_wf : DotDims.WF S4x4096x32 S1024x32 S4x4096x1024 [2] [1] [0, 1] [0] [] []

variable [Facts₀]

def gather_S50257x1024_S4x4096x1_S4x4096x1024_2_0_n_n_0_2_11024 : GatherDims S50257x1024 S4x4096x1 S4x4096x1024 where
  offsetDims := [2]
  collapsedSliceDims := [0]
  operandBatchingDims := []
  startIndicesBatchingDims := []
  startIndexMap := [0]
  indexVectorDim := 2
  sliceSizes := ![1, 1024]
  wf := gather_S50257x1024_S4x4096x1_S4x4096x1024_2_0_n_n_0_2_11024_wf
def gather_S50257_S4x4096x1_S4x4096_n_0_n_n_0_2_1 : GatherDims S50257 S4x4096x1 S4x4096 where
  offsetDims := []
  collapsedSliceDims := [0]
  operandBatchingDims := []
  startIndicesBatchingDims := []
  startIndexMap := [0]
  indexVectorDim := 2
  sliceSizes := ![1]
  wf := gather_S50257_S4x4096x1_S4x4096_n_0_n_n_0_2_1_wf
def dot_S4x4096x1024_S32x1024_S4x4096x32_2_1_01_0_n_n : DotDims S4x4096x1024 S32x1024 S4x4096x32 where
  lhsContracting := [2]
  rhsContracting := [1]
  lhsNonContracting := [0, 1]
  rhsNonContracting := [0]
  lhsBatch := []
  rhsBatch := []
  wf := dot_S4x4096x1024_S32x1024_S4x4096x32_2_1_01_0_n_n_wf
def dot_S4x4096x32_S1024x32_S4x4096x1024_2_1_01_0_n_n : DotDims S4x4096x32 S1024x32 S4x4096x1024 where
  lhsContracting := [2]
  rhsContracting := [1]
  lhsNonContracting := [0, 1]
  rhsNonContracting := [0]
  lhsBatch := []
  rhsBatch := []
  wf := dot_S4x4096x32_S1024x32_S4x4096x1024_2_1_01_0_n_n_wf

class Facts : Prop extends Facts₀ where

variable [Facts]
-- ==== Proof.HostPre.lean ====
/-
  What the region finds in its four input arrays.

  Before the region the program gathers the embedding rows and the domain words at the token numbers, lays the
  [4, 4096] tokens out as 16384 rows, and concatenates the experts: the down-projections [8, 32, 1024] are turned to
  [1024, 8, 32] and flattened to [1024, 256], so that column n holds expert n / 32's row n % 32; the up-projections
  [8, 1024, 32] are turned to [8, 32, 1024] and flattened to [256, 1024], row n holding expert n / 32's column n % 32.
  Read at an entry: row b · 4096 + s of the first two arrays is token (b, s); the narrowing to half width is the
  identity on extended reals.
-/
import proofs.«180530_j77438260347449_1_alg».proof.Proof.Gen.KernelIdeal.Frame
import Idealize.ShloMosaic.Lib.Pipeline.Value
import Idealize.ShloMosaic.Lib.ValueIdx
import Idealize.ShloMosaic.Lib.StableHlo.Run

noncomputable section

namespace Cert.Moe.Ker

open Cert.KernelIdeal Cert.KernelIdeal.Gen Idealize.ShloMosaic Idealize.ShloMosaic.TcCoe Idealize.SL.Sem
open Idealize.ShloMosaic.ValueIdx Idealize.ShloMosaic.StableHlo

/-- The token numbers, negative ones counted from the end of the vocabulary, as a column of gather indices. -/
def tokenIdx (a0 : IVec S4x4096 32) : IVec S4x4096x1 32 :=
  broadcastInDim S4x4096x1 ![0, 1] bcast_S4x4096_S4x4096x1_0_1
    (select (cmpi .slt a0 (broadcastInDim S4x4096 ![] bcast_S_S4x4096 (constantI S_ 32 0#32)))
      (addi a0 (broadcastInDim S4x4096 ![] bcast_S_S4x4096 (constantI S_ 32 50257#32))) a0)

/-- The embedding rows of the tokens. -/
def baseK (a0 : IVec S4x4096 32) (a2 : FVec Ideal S50257x1024 .f32) : FVec Ideal S4x4096x1024 .f32 :=
  Host.gather gather_S50257x1024_S4x4096x1_S4x4096x1024_2_0_n_n_0_2_11024 a2 (tokenIdx a0)

/-- The domain words of the tokens. -/
def domK (a0 : IVec S4x4096 32) (a1 : IVec S50257 32) : IVec S4x4096 32 :=
  Host.gather gather_S50257_S4x4096x1_S4x4096_n_0_n_n_0_2_1 a1 (tokenIdx a0)

variable (m : (ℓ : Loc nD τ sig) → Buf (Elt Ideal) ℓ) (c : Dev nD)

/-- The rows the region reads: the gathered embedding, one row per token. -/
theorem V_rows : (V m c main_v14 : S16384x1024.Idx → EReal)
    = shapeCast S16384x1024 (baseK (m ((c.tc : Thread nD τ).loc main_arg0)) (m ((c.tc : Thread nD τ).loc main_arg2)))
        shapeCasts_S4x4096x1024_S16384x1024 := by
  show StableHlo.after hostOps0 (fun b => m (c, b)) (Proc.devRef .tc main_v14) = _
  after_results
  rfl

/-- The domain words the region reads, one per row. -/
theorem V_doms : (V m c main_v15 : S16384x1.Idx → BitVec 32)
    = shapeCast S16384x1 (domK (m ((c.tc : Thread nD τ).loc main_arg0)) (m ((c.tc : Thread nD τ).loc main_arg1)))
        shapeCasts_S4x4096_S16384x1 := by
  show StableHlo.after hostOps0 (fun b => m (c, b)) (Proc.devRef .tc main_v15) = _
  after_results
  rfl

/-- The concatenated down-projections the region reads. -/
theorem V_downs : (V m c main_v18 : S1024x256.Idx → EReal)
    = truncf (F := Ideal) .bf16 (shapeCast S1024x256
        (transpose S1024x8x32 [2, 0, 1] (m ((c.tc : Thread nD τ).loc main_arg3) : FVec Ideal S8x32x1024 .f32)
          transposes_S8x32x1024_S1024x8x32_2_0_1) shapeCasts_S1024x8x32_S1024x256) bitsLt_bf16_f32 := by
  show StableHlo.after hostOps0 (fun b => m (c, b)) (Proc.devRef .tc main_v18) = _
  after_results
  rfl

/-- The concatenated up-projections the region reads. -/
theorem V_ups : (V m c main_v21 : S256x1024.Idx → EReal)
    = truncf (F := Ideal) .bf16 (shapeCast S256x1024
        (transpose S8x32x1024 [0, 2, 1] (m ((c.tc : Thread nD τ).loc main_arg4) : FVec Ideal S8x1024x32 .f32)
          transposes_S8x1024x32_S8x32x1024_0_2_1) shapeCasts_S8x32x1024_S256x1024) bitsLt_bf16_f32 := by
  show StableHlo.after hostOps0 (fun b => m (c, b)) (Proc.devRef .tc main_v21) = _
  after_results
  rfl

/-- Row b · 4096 + s is token (b, s). -/
theorem token_row_lt (b : Fin 4) (s : Fin 4096) : b.val * 4096 + s.val < 16384 := by
  have := b.isLt; have := s.isLt; omega

theorem rows_apply {α : Type} (T : S4x4096x1024.Idx → α) (b : Fin 4) (s : Fin 4096) (k : Fin 1024) :
    shapeCast S16384x1024 T shapeCasts_S4x4096x1024_S16384x1024 (ix2 ⟨b.val * 4096 + s.val, token_row_lt b s⟩ k)
      = T (ix3 b s k) :=
  shapeCast_apply T shapeCasts_S4x4096x1024_S16384x1024 _ _
    (by rw [Shape.rowMajor_val_three, Shape.rowMajor_val_two]; rfl)

theorem doms_apply {α : Type} (T : S4x4096.Idx → α) (b : Fin 4) (s : Fin 4096) :
    shapeCast S16384x1 T shapeCasts_S4x4096_S16384x1 (ix2 ⟨b.val * 4096 + s.val, token_row_lt b s⟩ (0 : Fin 1))
      = T (ix2 b s) :=
  shapeCast_apply T shapeCasts_S4x4096_S16384x1 _ _
    (by rw [Shape.rowMajor_val_two, Shape.rowMajor_val_two]; show b.val * 4096 + s.val = (b.val * 4096 + s.val) * 1 + 0; omega)

/-- And back: token (b, s) of the result is row b · 4096 + s of the region's output. -/
theorem tokens_apply {α : Type} (T : S16384x1024.Idx → α) (b : Fin 4) (s : Fin 4096) (k : Fin 1024) :
    shapeCast S4x4096x1024 T shapeCasts_S16384x1024_S4x4096x1024 (ix3 b s k)
      = T (ix2 ⟨b.val * 4096 + s.val, token_row_lt b s⟩ k) :=
  shapeCast_apply T shapeCasts_S16384x1024_S4x4096x1024 _ _
    (by rw [Shape.rowMajor_val_three, Shape.rowMajor_val_two]; rfl)

theorem col_expert_lt' (n : Fin 256) : n.val / 32 < 8 := by have := n.isLt; omega
theorem col_pos_lt' (n : Fin 256) : n.val % 32 < 32 := Nat.mod_lt _ (by decide)

/-- Column n of the concatenated down-projections is expert n / 32's row n % 32. -/
theorem downs_apply (W3 : FVec Ideal S8x32x1024 .f32) (k : Fin 1024) (n : Fin 256) :
    truncf (F := Ideal) .bf16 (shapeCast S1024x256 (transpose S1024x8x32 [2, 0, 1] W3 transposes_S8x32x1024_S1024x8x32_2_0_1)
        shapeCasts_S1024x8x32_S1024x256) bitsLt_bf16_f32 (ix2 k n)
      = W3 (ix3 ⟨n.val / 32, col_expert_lt' n⟩ ⟨n.val % 32, col_pos_lt' n⟩ k) := by
  rw [truncf_apply]
  refine (shapeCast_apply _ shapeCasts_S1024x8x32_S1024x256 (ix2 k n)
    (ix3 k ⟨n.val / 32, col_expert_lt' n⟩ ⟨n.val % 32, col_pos_lt' n⟩) ?_).trans ?_
  · rw [Shape.rowMajor_val_three, Shape.rowMajor_val_two]
    show (k.val * 8 + n.val / 32) * 32 + n.val % 32 = k.val * 256 + n.val
    have := n.isLt; omega
  · exact transpose_apply _ W3 transposes_S8x32x1024_S1024x8x32_2_0_1 _ _
      fun a => match a with | ⟨0, _⟩ => rfl | ⟨1, _⟩ => rfl | ⟨2, _⟩ => rfl

/-- Row n of the concatenated up-projections is expert n / 32's column n % 32. -/
theorem ups_apply (W4 : FVec Ideal S8x1024x32 .f32) (n : Fin 256) (d : Fin 1024) :
    truncf (F := Ideal) .bf16 (shapeCast S256x1024 (transpose S8x32x1024 [0, 2, 1] W4 transposes_S8x1024x32_S8x32x1024_0_2_1)
        shapeCasts_S8x32x1024_S256x1024) bitsLt_bf16_f32 (ix2 n d)
      = W4 (ix3 ⟨n.val / 32, col_expert_lt' n⟩ d ⟨n.val % 32, col_pos_lt' n⟩) := by
  rw [truncf_apply]
  refine (shapeCast_apply _ shapeCasts_S8x32x1024_S256x1024 (ix2 n d)
    (ix3 ⟨n.val / 32, col_expert_lt' n⟩ ⟨n.val % 32, col_pos_lt' n⟩ d) ?_).trans ?_
  · rw [Shape.rowMajor_val_three, Shape.rowMajor_val_two]
    show (n.val / 32 * 32 + n.val % 32) * 1024 + d.val = n.val * 1024 + d.val
    have := n.isLt; omega
  · exact transpose_apply _ W4 transposes_S8x1024x32_S8x32x1024_0_2_1 _ _
      fun a => match a with | ⟨0, _⟩ => rfl | ⟨1, _⟩ => rfl | ⟨2, _⟩ => rfl

end Cert.Moe.Ker

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.Chain.lean ====
/-
  The expert of a column. Column n of the 256 concatenated columns belongs to expert n / 32. The program computes
  that quotient as a floor division of signed 32-bit words: the quotient rounded toward zero, lowered by one when the
  signs of dividend and divisor differ and the remainder is not zero. For the column numbers 0 … 255 and the divisor 32
  nothing is negative, so the correction never fires and the result is the word of n / 32.
-/
import Idealize.ShloMosaic.PureOps

namespace Cert.Moe

open Idealize.ShloMosaic

/-- The floor division by 32 of a signed word, as the program spells it. -/
def floorDiv32 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32)
    (IntOp.divsi .vector x 32#32)

/-- On the column numbers it is the plain quotient (each of the 256 cases evaluated). -/
theorem floorDiv32_col : ∀ n : Fin 256, floorDiv32 (BitVec.ofNat 32 n.val) = BitVec.ofNat 32 (n.val / 32) := by
  decide

end Cert.Moe
-- ==== Proof.LibRealEntries.lean ====
/-
  Real entries among the extended reals, and the associativity of a product of three matrices on them.

  An extended real is REAL when it is a real number (neither infinity). Sums, products and maxima of real entries are
  real, and the inclusion of the reals commutes with finite sums. On real entries multiplication distributes over
  sums, so the two ways of bracketing a product of three matrices agree entry by entry:
      Σ_k (Σ_i a i · x i k) · w k  =  Σ_i a i · (Σ_k x i k · w k)
  (`sum_mul_assoc`, over any two finite index types). With an infinite entry the two sides can differ, which is why the
  statement asks for real entries.
-/
import Idealize.ShloMosaic.PureOps.Ideal

open scoped BigOperators

noncomputable section

namespace Cert.Lib.RealEntries

/-- An extended real that is a real number. -/
def IsReal (x : EReal) : Prop := ∃ r : ℝ, x = (r : EReal)

theorem isReal_zero : IsReal 0 := ⟨0, rfl⟩

theorem isReal_coe (r : ℝ) : IsReal (r : EReal) := ⟨r, rfl⟩

/-- A sum of two real entries is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real entries is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two real entries is real. -/
theorem IsReal.max {x y : EReal} (hx : IsReal x) (hy : IsReal y) : IsReal (max x y) := by
  rcases max_choice x y with h | h <;> rw [h] <;> assumption

/-- A finite sum of real entries is real. -/
theorem IsReal.sum {ι : Type} (s : Finset ι) (f : ι → EReal) (hf : ∀ i, IsReal (f i)) : IsReal (∑ i ∈ s, f i) := by
  classical
  induction s using Finset.induction_on with
  | empty => rw [Finset.sum_empty]; exact isReal_zero
  | insert a s ha ih => rw [Finset.sum_insert ha]; exact (hf a).add ih

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- Associativity of a product of three matrices, entry by entry, for real entries:
    Σ_k (Σ_i a i · x i k) · w k = Σ_i a i · (Σ_k x i k · w k). -/
theorem sum_mul_assoc {ι κ : Type} [Fintype ι] [Fintype κ] (a : ι → EReal) (x : ι → κ → EReal) (w : κ → EReal)
    (ha : ∀ i, IsReal (a i)) (hx : ∀ i k, IsReal (x i k)) (hw : ∀ k, IsReal (w k)) :
    ∑ k, (∑ i, a i * x i k) * w k = ∑ i, a i * ∑ k, x i k * w k := by
  choose a' ha using ha
  choose x' hx using hx
  choose w' hw using hw
  have hl : ∑ k, (∑ i, a i * x i k) * w k = ((∑ k, (∑ i, a' i * x' i k) * w' k : ℝ) : EReal) := by
    rw [coe_sum]
    refine Finset.sum_congr rfl fun k _ => ?_
    rw [EReal.coe_mul, coe_sum, hw k]
    refine congrArg (· * (w' k : EReal)) (Finset.sum_congr rfl fun i _ => ?_)
    rw [EReal.coe_mul, ha i, hx i k]
  have hr : ∑ i, a i * ∑ k, x i k * w k = ((∑ i, a' i * ∑ k, x' i k * w' k : ℝ) : EReal) := by
    rw [coe_sum]
    refine Finset.sum_congr rfl fun i _ => ?_
    rw [EReal.coe_mul, coe_sum, ha i]
    refine congrArg ((a' i : EReal) * ·) (Finset.sum_congr rfl fun k _ => ?_)
    rw [EReal.coe_mul, hx i k, hw k]
  rw [hl, hr]
  refine congrArg _ ?_
  simp only [Finset.sum_mul, Finset.mul_sum]
  rw [Finset.sum_comm]
  exact Finset.sum_congr rfl fun i _ => Finset.sum_congr rfl fun k _ => mul_assoc _ _ _

end Cert.Lib.RealEntries

end
-- ==== Proof.LibBlockSums.lean ====
/-
  Three re-indexing lemmas for finite sums in an additive commutative monoid.

  * A sum over the indices of a three-axis shape is the triple sum over the three coordinates.
  * A sum over `A * B` rows is the sum over `A` blocks of the sums over the `B` rows of each block
    (row `t * B + r` is row `r` of block `t`).
  * `G` groups of `K` terms each, group `g`'s terms placed in the first `K` slots of an `R × L` array of slots
    (slot `(r, l)` has number `r * L + l`, and a term is selected for a slot by comparing its number with the slot's):
    summing every slot of every group gives the sum of all `G * K` terms.

  Nothing here depends on what the terms are; the lemmas hold in every additive commutative monoid.
-/
import Mathlib.Algebra.BigOperators.Fin
import Mathlib.Algebra.BigOperators.Intervals
import Idealize.ShloMosaic.Lib.ValueIdx

open scoped BigOperators

namespace BlockSums

open Idealize.ShloMosaic Idealize.ShloMosaic.ValueIdx

variable {M : Type*} [AddCommMonoid M]

/-- A rank-3 index set is the product of its three coordinate ranges. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- a sum over the indices of a three-axis shape is the triple sum over its coordinates -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row `r` of block `t`, numbered `t * B + r`, is one of the `A * B` rows. -/
theorem block_row_lt {A B : Nat} (t : Fin A) (r : Fin B) : t.val * B + r.val < A * B :=
  calc t.val * B + r.val < t.val * B + B := Nat.add_lt_add_left r.isLt _
    _ = (t.val + 1) * B := (Nat.succ_mul _ _).symm
    _ ≤ A * B := Nat.mul_le_mul_right _ t.isLt

/-- a sum over N = A·B rows is the sum over A blocks of the sum over the B rows of a block -/
theorem sum_blocks (A B N : Nat) (hN : N = A * B) (g : Fin N → M) :
    ∑ n : Fin N, g n = ∑ t : Fin A, ∑ r : Fin B, g ⟨t.val * B + r.val, by subst hN; exact block_row_lt t r⟩ := by
  subst hN
  rw [← finProdFinEquiv.sum_comp, Fintype.sum_prod_type]
  refine Finset.sum_congr rfl fun t _ => Finset.sum_congr rfl fun r _ => ?_
  congr 1
  apply Fin.ext
  show r.val + B * t.val = t.val * B + r.val
  rw [Nat.mul_comm, Nat.add_comm]

/-- One group: the first `K` terms of a sequence, term `i` selected for the slot numbered `i` of an `R × L` array of
    slots (slot `(r, l)` has number `r * L + l`); when the array has at least `K` slots, summing every slot gives the
    sum of the `K` terms, since each `i < K` is the number of exactly one slot. -/
theorem sum_onehot_slots (R L K : Nat) (hK : K ≤ R * L) (c : Nat → M) :
    ∑ r : Fin R, ∑ l : Fin L, ∑ i ∈ Finset.range K, (if r.val * L + l.val = i then c i else 0)
      = ∑ i ∈ Finset.range K, c i :=
  calc ∑ r : Fin R, ∑ l : Fin L, ∑ i ∈ Finset.range K, (if r.val * L + l.val = i then c i else 0)
      = ∑ r : Fin R, ∑ l : Fin L,
          (fun n : Fin (R * L) => if n.val < K then c n.val else 0) ⟨r.val * L + l.val, block_row_lt r l⟩ := by
        refine Finset.sum_congr rfl fun r _ => Finset.sum_congr rfl fun l _ => ?_
        rw [Finset.sum_ite_eq]
        simp only [Finset.mem_range]
    _ = ∑ n : Fin (R * L), (if n.val < K then c n.val else 0) :=
        (sum_blocks R L (R * L) rfl (fun n : Fin (R * L) => if n.val < K then c n.val else 0)).symm
    _ = ∑ n ∈ Finset.range (R * L), (if n < K then c n else 0) :=
        Fin.sum_univ_eq_sum_range (fun n => if n < K then c n else 0) (R * L)
    _ = ∑ n ∈ Finset.range K, (if n < K then c n else 0) := by
        refine (Finset.sum_subset (Finset.range_subset_range.mpr hK) fun n _ hn => ?_).symm
        exact if_neg fun h => hn (Finset.mem_range.mpr h)
    _ = ∑ n ∈ Finset.range K, c n :=
        Finset.sum_congr rfl fun n hn => if_pos (Finset.mem_range.mp hn)

/-- G groups of K tile sums, group g's sums parked in the first K slots of an R×L slot array (slot (r,l) has number
    r·L + l, one-hot by the slot number): summing every slot of every group gives the sum of all the tile sums -/
theorem sum_slots (G R L K N : Nat) (hK : K ≤ R * L) (hN : N = G * K) (F : Fin N → M) :
    ∑ g : Fin G, ∑ r : Fin R, ∑ l : Fin L, ∑ i ∈ Finset.range K,
        (if r.val * L + l.val = i then (if h : K * g.val + i < N then F ⟨K * g.val + i, h⟩ else 0) else 0)
      = ∑ t : Fin N, F t := by
  rw [sum_blocks G K N hN F]
  refine Finset.sum_congr rfl fun g _ => ?_
  refine (sum_onehot_slots R L K hK
    (fun i => if h : K * g.val + i < N then F ⟨K * g.val + i, h⟩ else 0)).trans ?_
  rw [← Fin.sum_univ_eq_sum_range (fun i => if h : K * g.val + i < N then F ⟨K * g.val + i, h⟩ else 0) K]
  refine Finset.sum_congr rfl fun i _ => ?_
  have h : K * g.val + i.val < N := by
    rw [hN, Nat.mul_comm K g.val]
    exact block_row_lt g i
  rw [dif_pos h]
  congr 1
  apply Fin.ext
  show K * g.val + i.val = g.val * K + i.val
  rw [Nat.mul_comm]

end BlockSums
-- ==== Proof.Spec.lean ====
/-
  The routed correction, as mathematics.

  A token (b, s) has an embedding row B(b, s, ·) and a domain word D(b, s). Expert g projects the row down to 32
  numbers, down(g, e) = Σ_k B(b, s, k) · W3(g, e, k), and back up, corr(g)(d) = Σ_e down(g, e) · W4(g, d, e). The
  result adds a tenth of the correction of the token's own expert and nothing for the others.

  Two arrangements of that sum are compared here. The sequential one adds, expert after expert,
  (1/10 · corr g) · [D = g], eight terms in order. The concatenated one lays the eight experts side by side on one axis
  of 256 columns, column n belonging to expert n / 32 at position n % 32, zeroes the columns of the other experts
  before projecting up, and multiplies the whole sum by a tenth once. On real entries the two agree: a sum over 256
  columns is a sum over 8 blocks of 32, a zeroed block contributes nothing, and a real factor distributes over a finite
  sum of real numbers. (With an infinite entry a zeroed block could still meet an infinity elsewhere, so the statement
  asks for real entries.)
-/
import Idealize.ShloMosaic.PureOps.Ideal
import Idealize.ShloMosaic.Lib.ValueIdx
import proofs.«180530_j77438260347449_1_alg».proof.Proof.LibRealEntries
import proofs.«180530_j77438260347449_1_alg».proof.Proof.LibBlockSums

open scoped BigOperators

noncomputable section

namespace Cert.Moe

open Idealize.ShloMosaic Idealize.ShloMosaic.ValueIdx Cert.Lib.RealEntries

/-- The embedded tokens, [4, 4096, 1024]. -/
abbrev SB : Shape := ⟨3, ![4, 4096, 1024]⟩
/-- One word per token, [4, 4096]. -/
abbrev ST : Shape := ⟨2, ![4, 4096]⟩
/-- The experts' down-projections, [8, 32, 1024]. -/
abbrev SE : Shape := ⟨3, ![8, 32, 1024]⟩
/-- The experts' up-projections, [8, 1024, 32]. -/
abbrev SP : Shape := ⟨3, ![8, 1024, 32]⟩

/-- The factor one tenth, as the single-precision pattern both programs spell. -/
def tenth : EReal := Ideal.ofBits .f32 0x3DCCCCCD#32

/-- The pattern of one tenth is a real number: its exponent field is neither all ones nor zero. -/
theorem tenth_isReal : IsReal tenth := by
  unfold tenth Ideal.ofBits Ideal.ieee
  dsimp only
  rw [if_neg (by decide), if_neg (by decide)]
  exact ⟨_, rfl⟩

/-- 1 when the token's domain word is expert g's number, else 0. -/
def gate (D : BitVec 32) (g : Fin 8) : EReal := if D = BitVec.ofNat 32 g.val then 1 else 0

theorem gate_isReal (D : BitVec 32) (g : Fin 8) : IsReal (gate D g) := by
  unfold gate; split
  · exact ⟨1, rfl⟩
  · exact isReal_zero

section
variable (B : SB.Idx → EReal) (Dm : ST.Idx → BitVec 32) (W3 : SE.Idx → EReal) (W4 : SP.Idx → EReal)

/-- Expert g's down-projection of token (b, s), position e. -/
def down (b : Fin 4) (s : Fin 4096) (g : Fin 8) (e : Fin 32) : EReal :=
  ∑ k : Fin 1024, B (ix3 b s k) * W3 (ix3 g e k)

/-- Expert g's correction of token (b, s) at feature d. -/
def corr (b : Fin 4) (s : Fin 4096) (d : Fin 1024) (g : Fin 8) : EReal :=
  ∑ e : Fin 32, down B W3 b s g e * W4 (ix3 g d e)

/-- Expert g's term of the sequential arrangement. -/
def term (b : Fin 4) (s : Fin 4096) (d : Fin 1024) (g : Fin 8) : EReal :=
  (tenth * corr B W3 W4 b s d g) * gate (Dm (ix2 b s)) g

/-- The sequential arrangement: the eight experts' terms added to the embedding in order. -/
def seqForm (b : Fin 4) (s : Fin 4096) (d : Fin 1024) : EReal :=
  (((((((B (ix3 b s d) + term B Dm W3 W4 b s d 0) + term B Dm W3 W4 b s d 1) + term B Dm W3 W4 b s d 2)
    + term B Dm W3 W4 b s d 3) + term B Dm W3 W4 b s d 4) + term B Dm W3 W4 b s d 5) + term B Dm W3 W4 b s d 6)
    + term B Dm W3 W4 b s d 7

theorem col_expert_lt (n : Fin 256) : n.val / 32 < 8 := by have := n.isLt; omega
theorem col_pos_lt (n : Fin 256) : n.val % 32 < 32 := Nat.mod_lt _ (by decide)

/-- The concatenated arrangement: 256 columns, column n expert n / 32 at position n % 32, the other experts'
    columns zeroed, one factor of a tenth. -/
def catForm (b : Fin 4) (s : Fin 4096) (d : Fin 1024) : EReal :=
  B (ix3 b s d) + tenth * ∑ n : Fin 256,
    (if Dm (ix2 b s) = BitVec.ofNat 32 (n.val / 32)
      then ∑ k : Fin 1024, B (ix3 b s k) * W3 (ix3 ⟨n.val / 32, col_expert_lt n⟩ ⟨n.val % 32, col_pos_lt n⟩ k)
      else 0) * W4 (ix3 ⟨n.val / 32, col_expert_lt n⟩ d ⟨n.val % 32, col_pos_lt n⟩)

end

/-- A real factor distributes over a finite sum of real numbers. -/
theorem mul_sum_real {ι : Type} (s : Finset ι) (a : EReal) (f : ι → EReal) (ha : IsReal a) (hf : ∀ i, IsReal (f i)) :
    a * ∑ i ∈ s, f i = ∑ i ∈ s, a * f i := by
  obtain ⟨a', rfl⟩ := ha
  choose f' hf using hf
  have e1 : ∑ i ∈ s, f i = ((∑ i ∈ s, f' i : ℝ) : EReal) := by
    rw [coe_sum]; exact Finset.sum_congr rfl fun i _ => hf i
  rw [e1, ← EReal.coe_mul, Finset.mul_sum, coe_sum]
  exact Finset.sum_congr rfl fun i _ => by rw [EReal.coe_mul, hf i]

section
variable (B : SB.Idx → EReal) (Dm : ST.Idx → BitVec 32) (W3 : SE.Idx → EReal) (W4 : SP.Idx → EReal)

theorem down_isReal (hB : ∀ i, IsReal (B i)) (hW3 : ∀ i, IsReal (W3 i)) (b : Fin 4) (s : Fin 4096) (g : Fin 8)
    (e : Fin 32) : IsReal (down B W3 b s g e) :=
  IsReal.sum _ _ fun k => (hB _).mul (hW3 _)

theorem corr_isReal (hB : ∀ i, IsReal (B i)) (hW3 : ∀ i, IsReal (W3 i)) (hW4 : ∀ i, IsReal (W4 i)) (b : Fin 4)
    (s : Fin 4096) (d : Fin 1024) (g : Fin 8) : IsReal (corr B W3 W4 b s d g) :=
  IsReal.sum _ _ fun e => (down_isReal B W3 hB hW3 b s g e).mul (hW4 _)

/-- One expert's block of 32 columns: zeroed unless it is the token's own expert. -/
theorem block_sum (b : Fin 4) (s : Fin 4096) (d : Fin 1024) (g : Fin 8) :
    (∑ e : Fin 32, (if Dm (ix2 b s) = BitVec.ofNat 32 g.val then down B W3 b s g e else 0) * W4 (ix3 g d e))
      = corr B W3 W4 b s d g * gate (Dm (ix2 b s)) g := by
  unfold gate corr
  by_cases h : Dm (ix2 b s) = BitVec.ofNat 32 g.val
  · simp only [if_pos h, mul_one]
  · simp only [if_neg h, zero_mul, Finset.sum_const_zero, mul_zero]

/-- Column n, when n = g · 32 + e, is expert g at position e. -/
theorem cat_term (b : Fin 4) (s : Fin 4096) (d : Fin 1024) (n : Fin 256) (g : Fin 8) (e : Fin 32)
    (hq : n.val / 32 = g.val) (hr : n.val % 32 = e.val) :
    (if Dm (ix2 b s) = BitVec.ofNat 32 (n.val / 32)
        then ∑ k : Fin 1024, B (ix3 b s k) * W3 (ix3 ⟨n.val / 32, col_expert_lt n⟩ ⟨n.val % 32, col_pos_lt n⟩ k)
        else 0) * W4 (ix3 ⟨n.val / 32, col_expert_lt n⟩ d ⟨n.val % 32, col_pos_lt n⟩)
      = (if Dm (ix2 b s) = BitVec.ofNat 32 g.val then down B W3 b s g e else 0) * W4 (ix3 g d e) := by
  have eg : (⟨n.val / 32, col_expert_lt n⟩ : Fin 8) = g := Fin.ext hq
  have ee : (⟨n.val % 32, col_pos_lt n⟩ : Fin 32) = e := Fin.ext hr
  rw [eg, ee, hq]
  rfl

/-- The sum over 256 columns, block by block. -/
theorem cat_sum (b : Fin 4) (s : Fin 4096) (d : Fin 1024) :
    (∑ n : Fin 256,
      (if Dm (ix2 b s) = BitVec.ofNat 32 (n.val / 32)
        then ∑ k : Fin 1024, B (ix3 b s k) * W3 (ix3 ⟨n.val / 32, col_expert_lt n⟩ ⟨n.val % 32, col_pos_lt n⟩ k)
        else 0) * W4 (ix3 ⟨n.val / 32, col_expert_lt n⟩ d ⟨n.val % 32, col_pos_lt n⟩))
      = ∑ g : Fin 8, corr B W3 W4 b s d g * gate (Dm (ix2 b s)) g := by
  rw [BlockSums.sum_blocks 8 32 256 rfl]
  refine Finset.sum_congr rfl fun g _ => ?_
  rw [← block_sum]
  refine Finset.sum_congr rfl fun e _ => ?_
  exact cat_term B Dm W3 W4 b s d _ g e
    (by show (g.val * 32 + e.val) / 32 = g.val; have := e.isLt; omega)
    (by show (g.val * 32 + e.val) % 32 = e.val; have := e.isLt; omega)

/-- On real entries the concatenated arrangement is the sequential one. -/
theorem catForm_eq_seqForm (hB : ∀ i, IsReal (B i)) (hW3 : ∀ i, IsReal (W3 i)) (hW4 : ∀ i, IsReal (W4 i))
    (b : Fin 4) (s : Fin 4096) (d : Fin 1024) : catForm B Dm W3 W4 b s d = seqForm B Dm W3 W4 b s d := by
  unfold catForm seqForm
  rw [cat_sum, mul_sum_real _ _ _ tenth_isReal
    (fun g => (corr_isReal B W3 W4 hB hW3 hW4 b s d g).mul (gate_isReal _ g)), Fin.sum_univ_eight]
  simp only [term, mul_assoc, add_assoc]

end

end Cert.Moe

end
-- ==== Proof.Payload.lean ====
/-
  What one call of the kernel body stores, entry by entry.

  The body holds a block of 1024 token rows x0 [1024, 1024], their domain words x1 [1024, 1], and the two concatenated
  weight matrices x2 [1024, 256] and x3 [256, 1024]. It multiplies the rows into the 256 columns, zeroes column n of
  row r unless the row's domain word is the column's expert n / 32, multiplies the result by x3, and adds a tenth of that
  to the rows. At (r, d) the stored value is
      x0(r, d) + 1/10 · Σ_n [x1(r) = n / 32] · (Σ_k x0(r, k) · x2(k, n)) · x3(n, d).
  The narrowing to half width before each product is the identity on extended reals.
-/
import proofs.«180530_j77438260347449_1_alg».proof.Proof.Gen.KernelIdeal.Skeleton
import proofs.«180530_j77438260347449_1_alg».proof.Proof.LibMatmul
import proofs.«180530_j77438260347449_1_alg».proof.Proof.Chain
import proofs.«180530_j77438260347449_1_alg».proof.Proof.Spec
import Idealize.ShloMosaic.Lib.Pipeline.Value
import Idealize.ShloMosaic.Lib.ValueIdx
import Idealize.ShloMosaic.PureOps.Ideal.Laws

open scoped BigOperators

noncomputable section

namespace Cert.Moe.Ker

open Cert.KernelIdeal Cert.KernelIdeal.Gen Idealize.ShloMosaic Idealize.ShloMosaic.ValueIdx Cert.Moe

/-- The expert of each column, as the body computes it from the column numbers. -/
def colExpert : IVec S1024x256 32 :=
  select
    (andi
      (cmpi .ne
        (subi (extui 32 (cmpi .sgt (iota .tc S1024x256 32 [1] iota_S1024x256_d1_w32) (broadcast S1024x256 0#32)) natLt_1_32)
          (extui 32 (cmpi .slt (iota .tc S1024x256 32 [1] iota_S1024x256_d1_w32) (broadcast S1024x256 0#32)) natLt_1_32))
        (broadcast S1024x256
          (Scalar.subi (Scalar.extui (Scalar.cmpi .sgt 32#32 0#32)) (Scalar.extui (Scalar.cmpi .slt 32#32 0#32)))))
      (cmpi .ne (remsi (iota .tc S1024x256 32 [1] iota_S1024x256_d1_w32) (broadcast S1024x256 32#32))
        (broadcast S1024x256 0#32)))
    (subi (divsi (iota .tc S1024x256 32 [1] iota_S1024x256_d1_w32) (broadcast S1024x256 32#32)) (broadcast S1024x256 1#32))
    (divsi (iota .tc S1024x256 32 [1] iota_S1024x256_d1_w32) (broadcast S1024x256 32#32))

/-- Column n belongs to expert n / 32. -/
theorem colExpert_apply (r : Fin 1024) (n : Fin 256) : colExpert (ix2 r n) = BitVec.ofNat 32 (n.val / 32) := by
  have hi : iota .tc S1024x256 32 [1] iota_S1024x256_d1_w32 (ix2 r n) = BitVec.ofNat 32 n.val :=
    iota_single_apply .tc S1024x256 32 1 iota_S1024x256_d1_w32 (ix2 r n)
  show floorDiv32 (iota .tc S1024x256 32 [1] iota_S1024x256_d1_w32 (ix2 r n)) = _
  rw [hi]
  exact floorDiv32_col n

/-- The 256 columns of a block of rows, the other experts' columns zeroed. -/
def masked (x0 : Vec Ideal S1024x1024 .f32) (x2 : Vec Ideal S1024x256 .bf16) (x1 : Vec Ideal S1024x1 .i32) :
    FVec Ideal S1024x256 .f32 :=
  select
    (cmpi .eq (broadcastTo S1024x256 (shapeCast S1024x1 x1 shapeCasts_S1024x1_S1024x1 : IVec S1024x1 32)
      broadcasts_S1024x1_S1024x256) colExpert)
    (matmul dot_S1024x1024_S1024x256_S1024x256_1_0_0_1_n_n none
      (truncf .bf16 (shapeCast S1024x1024 x0 shapeCasts_S1024x1024_S1024x1024 : FVec Ideal S1024x1024 .f32) bitsLt_bf16_f32)
      (shapeCast S1024x256 x2 shapeCasts_S1024x256_S1024x256 : FVec Ideal S1024x256 .bf16)
      (constant S1024x256 .f32 0x00000000#32))
    (broadcast S1024x256 (Scalar.ofBits (F := Ideal) .f32 0x00000000#32))

/-- The body's second product is over the masked columns. -/
theorem pay3_eq (x0 : Vec Ideal S1024x1024 .f32) (x2 : Vec Ideal S1024x256 .bf16) (x1 : Vec Ideal S1024x1 .i32)
    (x3 : Vec Ideal S256x1024 .bf16) :
    k0_pay3 (F := Ideal) x0 x2 x1 x3
      = matmul dot_S1024x256_S256x1024_S1024x1024_1_0_0_1_n_n none
          (truncf .bf16 (masked x0 x2 x1) bitsLt_bf16_f32)
          (shapeCast S256x1024 x3 shapeCasts_S256x1024_S256x1024 : FVec Ideal S256x1024 .bf16)
          (constant S1024x1024 .f32 0x00000000#32) := rfl

theorem dotDown_plain : dot_S1024x1024_S1024x256_S1024x256_1_0_0_1_n_n = DotDims.plain 1024 1024 256 := rfl
theorem dotUp_plain : dot_S1024x256_S256x1024_S1024x1024_1_0_0_1_n_n = DotDims.plain 1024 256 1024 := rfl

/-- A word comparison selecting between two values. -/
theorem select_cmpi_eq {α : Type} (a b : BitVec 32) (x y : α) :
    Scalar.select (IntOp.cmpi .eq a b) x y = if a = b then x else y := by
  by_cases h : a = b
  · simp [Scalar.select, IntOp.cmpi, h]
  · have hb : (a == b) = false := beq_eq_false_iff_ne.mpr h
    have h01 : ¬((0#1 : BitVec 1) = 1#1) := by decide
    simp [Scalar.select, IntOp.cmpi, hb, h, h01]

/-- A masked column at (r, n). -/
theorem masked_apply (x0 : Vec Ideal S1024x1024 .f32) (x2 : Vec Ideal S1024x256 .bf16) (x1 : Vec Ideal S1024x1 .i32)
    (r : Fin 1024) (n : Fin 256) :
    masked x0 x2 x1 (ix2 r n)
      = if x1 (ix2 r (0 : Fin 1)) = BitVec.ofNat 32 (n.val / 32) then ∑ k : Fin 1024, x0 (ix2 r k) * x2 (ix2 k n) else 0 := by
  have hb : broadcastTo S1024x256 (shapeCast S1024x1 x1 shapeCasts_S1024x1_S1024x1 : IVec S1024x1 32)
      broadcasts_S1024x1_S1024x256 (ix2 r n) = x1 (ix2 r (0 : Fin 1)) := by
    rw [shapeCast_self]
    exact broadcastTo_apply _ broadcasts_S1024x1_S1024x256 (ix2 r n) (ix2 r (0 : Fin 1)) (fun a => match a with
      | ⟨0, _⟩ => by show r.val = if (1024 : Nat) = 1 then 0 else r.val; rw [if_neg (by decide)]
      | ⟨1, _⟩ => by show (0 : Nat) = if (1 : Nat) = 1 then 0 else n.val; rw [if_pos rfl])
  have hm : matmul dot_S1024x1024_S1024x256_S1024x256_1_0_0_1_n_n none
      (truncf .bf16 (shapeCast S1024x1024 x0 shapeCasts_S1024x1024_S1024x1024 : FVec Ideal S1024x1024 .f32) bitsLt_bf16_f32)
      (shapeCast S1024x256 x2 shapeCasts_S1024x256_S1024x256 : FVec Ideal S1024x256 .bf16)
      (constant S1024x256 .f32 0x00000000#32) (ix2 r n) = ∑ k : Fin 1024, x0 (ix2 r k) * x2 (ix2 k n) := by
    rw [dotDown_plain, shapeCast_self, shapeCast_self]
    exact Cert.Lib.Matmul.matmul_plain_zero_apply none _ _ r n
  show Scalar.select (IntOp.cmpi .eq (broadcastTo S1024x256 (shapeCast S1024x1 x1 shapeCasts_S1024x1_S1024x1 : IVec S1024x1 32)
      broadcasts_S1024x1_S1024x256 (ix2 r n)) (colExpert (ix2 r n))) _ (Ideal.ofBits .f32 0x00000000#32) = _
  rw [hb, colExpert_apply, hm, select_cmpi_eq, Ideal.ofBits_zero_f32]

/-- What the body stores at (r, d). -/
theorem pay_apply (x0 : Vec Ideal S1024x1024 .f32) (x1 : Vec Ideal S1024x1 .i32) (x2 : Vec Ideal S1024x256 .bf16)
    (x3 : Vec Ideal S256x1024 .bf16) (r : Fin 1024) (d : Fin 1024) :
    k0_pay1 (F := Ideal) (k0_pay2 x0) (k0_pay3 x0 x2 x1 x3) (ix2 r d)
      = x0 (ix2 r d) + tenth * ∑ n : Fin 256,
          (if x1 (ix2 r (0 : Fin 1)) = BitVec.ofNat 32 (n.val / 32) then ∑ k : Fin 1024, x0 (ix2 r k) * x2 (ix2 k n) else 0)
            * x3 (ix2 n d) := by
  rw [pay3_eq]
  show (shapeCast S1024x1024 x0 shapeCasts_S1024x1024_S1024x1024 : FVec Ideal S1024x1024 .f32) (ix2 r d)
      + Ideal.ofBits .f32 0x3DCCCCCD#32 * matmul dot_S1024x256_S256x1024_S1024x1024_1_0_0_1_n_n none
          (truncf .bf16 (masked x0 x2 x1) bitsLt_bf16_f32)
          (shapeCast S256x1024 x3 shapeCasts_S256x1024_S256x1024 : FVec Ideal S256x1024 .bf16)
          (constant S1024x1024 .f32 0x00000000#32) (ix2 r d) = _
  rw [dotUp_plain, shapeCast_self, shapeCast_self, Cert.Lib.Matmul.matmul_plain_zero_apply]
  refine congrArg (x0 (ix2 r d) + tenth * ·) ?_
  refine Finset.sum_congr rfl fun n _ => ?_
  refine congrArg (· * x3 (ix2 n d)) ?_
  exact masked_apply x0 x2 x1 r n

end Cert.Moe.Ker

end
-- ==== Proof.Blocks.lean ====
/-
  From the blocks to the whole array.

  The region runs over 16 points; point t works on rows t · 1024 … t · 1024 + 1023 of the row array and of the domain
  column, on the whole of both weight matrices, and writes rows t · 1024 … of the output. What point t writes back is
  therefore block t of ONE function of the four input arrays (regionOut: the body's entry formula with the block's row
  moved to its place in the array), and the 16 blocks cover the output, so the output array ends holding that function.
-/
import proofs.«180530_j77438260347449_1_alg».proof.Proof.HostPre
import proofs.«180530_j77438260347449_1_alg».proof.Proof.Payload

set_option maxRecDepth 16384

open scoped BigOperators

noncomputable section

namespace Cert.Moe.Ker

open Cert.KernelIdeal Cert.KernelIdeal.Gen Idealize.ShloMosaic Idealize.ShloMosaic.TcCoe Idealize.SL.Sem
open Idealize.ShloMosaic.ValueIdx Idealize.ShloMosaic.Pipeline Cert.Moe

theorem hz : (![0, 0] : Fin 2 → Nat) = fun _ => 0 := funext fun a => by fin_cases a <;> rfl

/-- The region's output as one function of its four input arrays, entry by entry. -/
def regionOut (X0 : S16384x1024.Idx → EReal) (X1 : S16384x1.Idx → BitVec 32) (X2 : S1024x256.Idx → EReal)
    (X3 : S256x1024.Idx → EReal) : S16384x1024.Idx → EReal := fun i =>
  X0 (ix2 (i 0) (i 1)) + tenth * ∑ n : Fin 256,
    (if X1 (ix2 (i 0) (0 : Fin 1)) = BitVec.ofNat 32 (n.val / 32) then ∑ k : Fin 1024, X0 (ix2 (i 0) k) * X2 (ix2 k n) else 0)
      * X3 (ix2 n (i 1))

/-- The printed index maps over the grid: the row windows and the output move with the point, the weights stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row of the output is some point's. -/
theorem idx_onto : ∀ q : Fin 16, ∃ t : Fin cfg0.N, win0_4.index t = ![q.val, 0] :=
  (by decide +kernel : ∀ q : Fin 16, ∃ t : Fin grid0.N, win0_4.index t = ![q.val, 0])

theorem point_lt (t : Fin cfg0.N) : t.val < 16 := t.isLt

theorem block_row_lt (t : Fin cfg0.N) (r : Fin 1024) : t.val * 1024 + r.val < 16384 := by
  have := point_lt t; have := r.isLt; omega

variable (m : (ℓ : Loc nD τ sig) → Buf (Elt Ideal) ℓ) (c : Dev nD)

/-- Point t's block of rows, at (r, k): row t · 1024 + r of the row array. -/
theorem rows_blk (t : Fin cfg0.N) (r : Fin 1024) (k : Fin 1024) :
    iblk m c 0 t (ix2 r k) = (V m c main_v14 : S16384x1024.Idx → EReal) (ix2 ⟨t.val * 1024 + r.val, block_row_lt t r⟩ k) := by
  obtain ⟨e00, e01, -⟩ := idx_facts t
  show (V m c main_v14 : S16384x1024.Idx → EReal) (((cfg0.win 0).blk t).view.emb (ix2 r k)) = _
  refine congrArg _ (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * k.val = k.val; omega

/-- Point t's block of domain words, at (r, 0): row t · 1024 + r of the domain column. -/
theorem doms_blk (t : Fin cfg0.N) (r : Fin 1024) (u : Fin 1) :
    iblk m c 1 t (ix2 r u) = (V m c main_v15 : S16384x1.Idx → BitVec 32) (ix2 ⟨t.val * 1024 + r.val, block_row_lt t r⟩ u) := by
  obtain ⟨-, -, e10, e11, -⟩ := idx_facts t
  show (V m c main_v15 : S16384x1.Idx → BitVec 32) (((cfg0.win 1).blk t).view.emb (ix2 r u)) = _
  refine congrArg _ (funext fun a => Fin.ext ?_)
  match a with
  | ⟨0, _⟩ => show win0_1.index t (0 : Fin 2) * 1024 + 1 * r.val = t.val * 1024 + r.val; omega
  | ⟨1, _⟩ => show win0_1.index t (1 : Fin 2) * 1 + 1 * u.val = u.val; omega

/-- Every point reads the whole concatenated down-projections. -/
theorem downs_blk (t : Fin cfg0.N) (k : Fin 1024) (n : Fin 256) :
    iblk m c 2 t (ix2 k n) = (V m c main_v18 : S1024x256.Idx → EReal) (ix2 k n) := by
  obtain ⟨-, -, -, -, e20, e21, -⟩ := idx_facts t
  show (V m c main_v18 : S1024x256.Idx → EReal) (((cfg0.win 2).blk t).view.emb (ix2 k n)) = _
  refine congrArg _ (funext fun a => Fin.ext ?_)
  match a with
  | ⟨0, _⟩ => show win0_2.index t (0 : Fin 2) * 1024 + 1 * k.val = k.val; omega
  | ⟨1, _⟩ => show win0_2.index t (1 : Fin 2) * 256 + 1 * n.val = n.val; omega

/-- Every point reads the whole concatenated up-projections. -/
theorem ups_blk (t : Fin cfg0.N) (n : Fin 256) (d : Fin 1024) :
    iblk m c 3 t (ix2 n d) = (V m c main_v21 : S256x1024.Idx → EReal) (ix2 n d) := by
  obtain ⟨-, -, -, -, -, -, e30, e31, -⟩ := idx_facts t
  show (V m c main_v21 : S256x1024.Idx → EReal) (((cfg0.win 3).blk t).view.emb (ix2 n d)) = _
  refine congrArg _ (funext fun a => Fin.ext ?_)
  match a with
  | ⟨0, _⟩ => show win0_3.index t (0 : Fin 2) * 256 + 1 * n.val = n.val; omega
  | ⟨1, _⟩ => show win0_3.index t (1 : Fin 2) * 1024 + 1 * d.val = d.val; omega

/-- Where entry (r, d) of point t's output block sits in the output array. -/
theorem out_emb (t : Fin cfg0.N) (r : Fin 1024) (d : Fin 1024) :
    ((cfg0.win 4).blk t).view.emb (ix2 r d) = (ix2 ⟨t.val * 1024 + r.val, block_row_lt t r⟩ d : S16384x1024.Idx) := by
  obtain ⟨-, -, -, -, -, -, -, -, e40, e41⟩ := idx_facts t
  refine funext fun a => Fin.ext ?_
  match a with
  | ⟨0, _⟩ => show win0_4.index t (0 : Fin 2) * 1024 + 1 * r.val = t.val * 1024 + r.val; omega
  | ⟨1, _⟩ => show win0_4.index t (1 : Fin 2) * 1024 + 1 * d.val = d.val; omega

/-- The body's stored value at an entry of point t's block is regionOut at the entry's place in the array. -/
theorem flushed_at (t : Fin cfg0.N) (y : S1024x1024.Idx) :
    k0_pay1 (F := Ideal) (k0_pay2 (iblk m c 0 t)) (k0_pay3 (iblk m c 0 t) (iblk m c 2 t) (iblk m c 1 t) (iblk m c 3 t)) y
      = regionOut (V m c main_v14) (V m c main_v15) (V m c main_v18) (V m c main_v21) (((cfg0.win 4).blk t).view.emb y) := by
  obtain ⟨r, d, rfl⟩ : ∃ (r : Fin 1024) (d : Fin 1024), y = ix2 r d := ⟨y 0, y 1, eq_ix2 y⟩
  rw [out_emb t r d]
  refine (pay_apply (iblk m c 0 t) (iblk m c 1 t) (iblk m c 2 t) (iblk m c 3 t) r d).trans ?_
  unfold regionOut
  rw [rows_blk m c t r d, doms_blk m c t r (0 : Fin 1)]
  refine congrArg (_ + tenth * ·) ?_
  refine Finset.sum_congr rfl fun n _ => ?_
  rw [ups_blk m c t n d]
  refine congrArg (· * _) ?_
  refine if_congr Iff.rfl ?_ rfl
  refine Finset.sum_congr rfl fun k _ => ?_
  rw [rows_blk m c t r k, downs_blk m c t k n]

/-- WHAT POINT t WRITES BACK is block t of regionOut of the arrays as the region finds them. -/
theorem flushed_eq (t : Fin cfg0.N) :
    (dats m 0 c).flushed 4 t = ((cfg0.win 4).blk t).view.read (Elt Ideal)
      (regionOut (V m c main_v14) (V m c main_v15) (V m c main_v18) (V m c main_v21)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1024x256) hz,
    View.ld_unit_zero (S := S1024x1) hz, View.ld_unit_zero (S := S256x1024) hz]
  funext j
  exact flushed_at m c t j

/-- An index of the output is in point t's block iff each coordinate is in the block's range. -/
theorem mem_blk (t : Fin cfg0.N) (i : S16384x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v22).slice (win0_4.rect t)).set ↔ _
  rw [View.set_slice_whole, Rect.mem_set_unit]
  exact Iff.rfl

/-- The 16 blocks cover the output. -/
theorem cover (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE OUTPUT ARRAY after the run. -/
theorem final : (dats m 0 c).arrAt 4 cfg0.N
    = regionOut (V m c main_v14) (V m c main_v15) (V m c main_v18) (V m c main_v21) :=
  (dats m 0 c).arrAt_eq_of_cover 4 _ (fun t _ => flushed_eq m c t) cover

end Cert.Moe.Ker

end
-- ==== Proof.KernelRun.lean ====
/-
  The kernel program's result.

  After the region one reshape lays the 16384 output rows back out as [4, 4096] tokens. So the program's result at
  (b, s, d) is the region's output at row b · 4096 + s, which — with the four input arrays read back through the
  operations before the region — is the concatenated arrangement of Spec.lean over the gathered embedding, the gathered
  domain words and the two stacks of expert weights.
-/
import proofs.«180530_j77438260347449_1_alg».proof.Proof.Blocks

set_option maxRecDepth 16384

open scoped BigOperators

noncomputable section

namespace Cert.Moe.Ker

open Cert.KernelIdeal Cert.KernelIdeal.Gen Idealize.ShloMosaic Idealize.ShloMosaic.TcCoe Idealize.SL.Sem
open Idealize.ShloMosaic.ValueIdx Idealize.ShloMosaic.Pipeline Idealize.ShloMosaic.StableHlo Cert.Moe

variable (m : (ℓ : Loc nD τ sig) → Buf (Elt Ideal) ℓ) (ρ : Dev nD → PrngReg)

/-- The program's result buffer after the reshape that follows the region. -/
theorem tail (c : Dev nD) :
    (Pipeline.afterTail₀ cfgs (dats m) 0 (V0 m) [hostOps1] c main_v23 : S4x4096x1024.Idx → EReal)
      = shapeCast S4x4096x1024 (regionOut (V m c main_v14) (V m c main_v15) (V m c main_v18) (V m c main_v21))
          shapeCasts_S16384x1024_S4x4096x1024 := by
  unfold Pipeline.afterTail₀
  show StableHlo.after hostOps1 _ (Proc.devRef .tc main_v23) = _
  after_results
  rw [(Pipeline.withArrays_arr spec0 launch0.win.arr_inj c _ _ 4).trans (final m c)]
  rfl

/-- The frame run re-posted: the result buffer named, the arguments unchanged. -/
theorem run : θ_run defs (onTc (τ := τ) (main (F := Ideal))) ⟨m, fun _ => 0, ρ⟩ (fun r => ∀ c : Dev nD,
      r.2.mem ((c.tc : Thread nD τ).loc main_v23)
        = shapeCast S4x4096x1024 (regionOut (V m c main_v14) (V m c main_v15) (V m c main_v18) (V m c main_v21))
            shapeCasts_S16384x1024_S4x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v23 (Pipeline.mem_restRefs_of main_v23 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result at (b, s, d): the concatenated arrangement over the gathered rows and words. -/
theorem result_apply (c : Dev nD) (b : Fin 4) (s : Fin 4096) (d : Fin 1024) :
    shapeCast S4x4096x1024 (regionOut (V m c main_v14) (V m c main_v15) (V m c main_v18) (V m c main_v21))
        shapeCasts_S16384x1024_S4x4096x1024 (ix3 b s d)
      = catForm (baseK (m ((c.tc : Thread nD τ).loc main_arg0)) (m ((c.tc : Thread nD τ).loc main_arg2)))
          (domK (m ((c.tc : Thread nD τ).loc main_arg0)) (m ((c.tc : Thread nD τ).loc main_arg1)))
          (m ((c.tc : Thread nD τ).loc main_arg3)) (m ((c.tc : Thread nD τ).loc main_arg4)) b s d := by
  rw [tokens_apply, V_rows, V_doms, V_downs, V_ups]
  unfold regionOut catForm
  show shapeCast S16384x1024 _ shapeCasts_S4x4096x1024_S16384x1024 (ix2 ⟨b.val * 4096 + s.val, token_row_lt b s⟩ d)
      + tenth * ∑ n : Fin 256,
        (if shapeCast S16384x1 _ shapeCasts_S4x4096_S16384x1 (ix2 ⟨b.val * 4096 + s.val, token_row_lt b s⟩ (0 : Fin 1))
            = BitVec.ofNat 32 (n.val / 32)
          then ∑ k : Fin 1024, shapeCast S16384x1024 _ shapeCasts_S4x4096x1024_S16384x1024
              (ix2 ⟨b.val * 4096 + s.val, token_row_lt b s⟩ k) * _
          else 0) * _ = _
  rw [rows_apply, doms_apply]
  refine congrArg (_ + tenth * ·) ?_
  refine Finset.sum_congr rfl fun n _ => ?_
  rw [ups_apply]
  refine congrArg (· * _) ?_
  refine if_congr Iff.rfl ?_ rfl
  refine Finset.sum_congr rfl fun k _ => ?_
  rw [rows_apply, downs_apply]

end Cert.Moe.Ker

end
-- ==== Proof.LibProjection.lean ====
/-
  One matrix of a stack multiplied into a row block, read at an entry, over the extended reals, at any extents.

  `slab_apply`: slab `r` of a stack `[R, b, c]`, cut out as `[1, b, c]` and viewed as the matrix `[b, c]`, reads at
  `(p, q)` the stack at `(r, p, q)`.
  `dotGeneral_plain_apply`: the host's plain product of `[M, K]` by `[K, N]` at `(p, e)` is the sum over the contracted
  coordinate `f` of the left operand at `(p, f)` times the right at `(f, e)` (it has no accumulator).
  `slabProduct_apply`: a row block `[M, K]` (viewed as itself) times a one-matrix block `[1, K, N]` viewed as `[K, N]`,
  into the zero accumulator, the product viewed as the one-slab block `[1, M, N]`: at `(u, p, e)` the sum over `f` of the
  row block at `(p, f)` times the matrix block at `(0, f, e)`.
-/
import Idealize.ShloMosaic.Lib.ValueIdx
import Idealize.ShloMosaic.Lib.ValueLayout
import Idealize.ShloMosaic.Lib.Pipeline.Value
import Idealize.ShloMosaic.PureOps.Ideal.Laws
import proofs.«180530_j77438260347449_1_alg».proof.Proof.LibMatmul

open scoped BigOperators

noncomputable section

namespace Cert.Lib.Projection

open Idealize.ShloMosaic Idealize.ShloMosaic.ValueIdx

/-- Slab `r` of a stack, cut out and viewed as a matrix, at `(p, q)`. -/
theorem slab_apply {α : Type} {R b c : ℕ} (off : Fin 3 → ℕ) (x : (⟨3, ![R, b, c]⟩ : Shape).Idx → α)
    (h : (⟨3, ![R, b, c]⟩ : Shape).Slices off ⟨3, ![1, b, c]⟩)
    (h' : (⟨3, ![1, b, c]⟩ : Shape).ShapeCasts ⟨2, ![b, c]⟩)
    (r : Fin R) (h0 : off 0 = r.val) (h1 : off 1 = 0) (h2 : off 2 = 0) (p : Fin b) (q : Fin c) :
    shapeCast ⟨2, ![b, c]⟩ (extractStridedSlice ⟨3, ![1, b, c]⟩ off x h) h' (ix2 p q) = x (ix3 r p q) :=
  (shapeCast_1ab_ab_apply _ h' p q).trans (extractStridedSlice_apply off x h _ _ (fun a => by
    match a with
    | ⟨0, _⟩ => show r.val = off 0 + 0; omega
    | ⟨1, _⟩ => show p.val = off 1 + p.val; omega
    | ⟨2, _⟩ => show q.val = off 2 + q.val; omega))

/-- The host's plain product at `(p, e)`. -/
theorem dotGeneral_plain_apply {M K N : ℕ} {φ₁ φ₂ : FTy} (prec : Option ContractPrecision)
    (L : FVec Ideal ⟨2, ![M, K]⟩ φ₁) (R : FVec Ideal ⟨2, ![K, N]⟩ φ₂) (p : Fin M) (e : Fin N) :
    Host.dotGeneral (F := Ideal) (DotDims.plain M K N) prec L R (ix2 p e) = ∑ f : Fin K, L (ix2 p f) * R (ix2 f e) :=
  (Ideal.dotGeneral_apply (DotDims.plain M K N) prec .single L R (ix2 p e)).trans (Cert.Lib.Matmul.plain_sum L R p e)

/-- A row block times one matrix block into zero, viewed as a one-slab block, at `(u, p, e)`. -/
theorem slabProduct_apply {M K N : ℕ} {φ₁ φ₂ : FTy} (prec : Option ContractPrecision)
    (v0 : FVec Ideal ⟨2, ![M, K]⟩ φ₁) (h0 : (⟨2, ![M, K]⟩ : Shape).ShapeCasts ⟨2, ![M, K]⟩)
    (v2 : FVec Ideal ⟨3, ![1, K, N]⟩ φ₂) (h2 : (⟨3, ![1, K, N]⟩ : Shape).ShapeCasts ⟨2, ![K, N]⟩)
    (h3 : (⟨2, ![M, N]⟩ : Shape).ShapeCasts ⟨3, ![1, M, N]⟩) (u : Fin 1) (p : Fin M) (e : Fin N) :
    shapeCast ⟨3, ![1, M, N]⟩ (matmul (F := Ideal) (DotDims.plain M K N) prec (shapeCast ⟨2, ![M, K]⟩ v0 h0)
        (shapeCast ⟨2, ![K, N]⟩ v2 h2) (constant ⟨2, ![M, N]⟩ .f32 0x00000000#32)) h3 (ix3 u p e)
      = ∑ f : Fin K, v0 (ix2 p f) * v2 (ix3 (0 : Fin 1) f e) := by
  refine (shapeCast_ab_1ab_apply _ h3 u p e).trans ?_
  refine (Cert.Lib.Matmul.matmul_plain_zero_apply prec _ _ p e).trans ?_
  refine Finset.sum_congr rfl fun f _ => ?_
  rw [shapeCast_self, shapeCast_1ab_ab_apply]

end Cert.Lib.Projection

end
-- ==== Proof.RefTerm.lean ====
/-
  The reference, expert by expert.

  The reference adds eight terms to the embedding, one per expert g: the embedding contracted with expert g's slab of
  the down-projections (an [8, 32, 1024] stack cut at g and viewed as [32, 1024]), that contracted with expert g's slab
  of the up-projections, times a tenth, times the 0/1 indicator of "the token's domain word is g" repeated along the
  feature axis. Here one such term is written once, for any slab offsets and any expert number, and read at an entry
  (b, s, d): it is (1/10 · corr g) · [D(b, s) = g] of Spec.lean. The run's result term is the embedding with the eight
  instances of that term added in order.
-/
import proofs.«180530_j77438260347449_1_alg».proof.Proof.Gen.ReferenceIdeal.Read
import proofs.«180530_j77438260347449_1_alg».proof.Proof.Spec
import proofs.«180530_j77438260347449_1_alg».proof.Proof.LibProjection

open scoped BigOperators

noncomputable section

namespace Cert.Moe.Ref

open Cert.ReferenceIdeal Cert.ReferenceIdeal.Gen Cert.ReferenceIdeal.Read Cert.ReferenceIdeal.Value
open Idealize.ShloMosaic Idealize.ShloMosaic.TcCoe Idealize.SL.Sem Idealize.ShloMosaic.ValueIdx Cert.Moe

/-! ## The host's operations at an entry, for any operand -/

/-- The first contraction, [4, 4096, 1024] with [32, 1024] over the last axis of each: at (b, s, e) the sum over k
    of the left operand at (b, s, k) times the right at (e, k). -/
theorem dotDown_apply (L : FVec Ideal S4x4096x1024 .f32) (R : FVec Ideal S32x1024 .f32) (i : S4x4096x32.Idx) :
    Host.dotGeneral (F := Ideal) dot_S4x4096x1024_S32x1024_S4x4096x32_2_1_01_0_n_n none L R i
      = ∑ k : Fin 1024, L (lidx_main_v20 i k) * R (ridx_main_v20 i k) := by
  simp only [Host.dotGeneral]
  rw [Ideal.dotGeneral_apply, ← Equiv.sum_comp (ValueIdx.contrEquiv1 dot_S4x4096x1024_S32x1024_S4x4096x32_2_1_01_0_n_n 1024 rfl rfl).symm]
  refine Finset.sum_congr rfl fun k _ => ?_
  have hk := ValueIdx.contrEquiv1_symm_val dot_S4x4096x1024_S32x1024_S4x4096x32_2_1_01_0_n_n 1024 rfl rfl k
  have el : dot_S4x4096x1024_S32x1024_S4x4096x32_2_1_01_0_n_n.lhsIdx i ((ValueIdx.contrEquiv1 dot_S4x4096x1024_S32x1024_S4x4096x32_2_1_01_0_n_n 1024 rfl rfl).symm k) = lidx_main_v20 i k := funext fun a => Fin.ext (by
    match a with
    | ⟨0, _⟩ => exact lhs_main_v20_0 _ _
    | ⟨1, _⟩ => exact lhs_main_v20_1 _ _
    | ⟨2, _⟩ => exact (lhs_main_v20_2 _ _).trans hk)
  have er : dot_S4x4096x1024_S32x1024_S4x4096x32_2_1_01_0_n_n.rhsIdx i ((ValueIdx.contrEquiv1 dot_S4x4096x1024_S32x1024_S4x4096x32_2_1_01_0_n_n 1024 rfl rfl).symm k) = ridx_main_v20 i k := funext fun a => Fin.ext (by
    match a with
    | ⟨0, _⟩ => exact rhs_main_v20_0 _ _
    | ⟨1, _⟩ => exact (rhs_main_v20_1 _ _).trans hk)
  rw [el, er]

/-- The second contraction, [4, 4096, 32] with [1024, 32] over the last axis of each: at (b, s, d) the sum over e
    of the left operand at (b, s, e) times the right at (d, e). -/
theorem dotUp_apply (L : FVec Ideal S4x4096x32 .f32) (R : FVec Ideal S1024x32 .f32) (i : S4x4096x1024.Idx) :
    Host.dotGeneral (F := Ideal) dot_S4x4096x32_S1024x32_S4x4096x1024_2_1_01_0_n_n none L R i
      = ∑ k : Fin 32, L (lidx_main_v23 i k) * R (ridx_main_v23 i k) := by
  simp only [Host.dotGeneral]
  rw [Ideal.dotGeneral_apply, ← Equiv.sum_comp (ValueIdx.contrEquiv1 dot_S4x4096x32_S1024x32_S4x4096x1024_2_1_01_0_n_n 32 rfl rfl).symm]
  refine Finset.sum_congr rfl fun k _ => ?_
  have hk := ValueIdx.contrEquiv1_symm_val dot_S4x4096x32_S1024x32_S4x4096x1024_2_1_01_0_n_n 32 rfl rfl k
  have el : dot_S4x4096x32_S1024x32_S4x4096x1024_2_1_01_0_n_n.lhsIdx i ((ValueIdx.contrEquiv1 dot_S4x4096x32_S1024x32_S4x4096x1024_2_1_01_0_n_n 32 rfl rfl).symm k) = lidx_main_v23 i k := funext fun a => Fin.ext (by
    match a with
    | ⟨0, _⟩ => exact lhs_main_v23_0 _ _
    | ⟨1, _⟩ => exact lhs_main_v23_1 _ _
    | ⟨2, _⟩ => exact (lhs_main_v23_2 _ _).trans hk)
  have er : dot_S4x4096x32_S1024x32_S4x4096x1024_2_1_01_0_n_n.rhsIdx i ((ValueIdx.contrEquiv1 dot_S4x4096x32_S1024x32_S4x4096x1024_2_1_01_0_n_n 32 rfl rfl).symm k) = ridx_main_v23 i k := funext fun a => Fin.ext (by
    match a with
    | ⟨0, _⟩ => exact rhs_main_v23_0 _ _
    | ⟨1, _⟩ => exact (rhs_main_v23_1 _ _).trans hk)
  rw [el, er]

/-- A scalar repeated over [4, 4096, 1024]. -/
theorem splat3_apply {α : Type} (y : S_.Idx → α) (i : S4x4096x1024.Idx) :
    broadcastInDim S4x4096x1024 ![] bcast_S_S4x4096x1024 y i = y ix0 :=
  broadcastInDim_apply _ bcast_S_S4x4096x1024 y i ix0 (fun a => a.elim0)

/-- A scalar repeated over [4, 4096]. -/
theorem splat2_apply {α : Type} (y : S_.Idx → α) (i : S4x4096.Idx) :
    broadcastInDim S4x4096 ![] bcast_S_S4x4096 y i = y ix0 :=
  broadcastInDim_apply _ bcast_S_S4x4096 y i ix0 (fun a => a.elim0)

/-- A [4, 4096] array given a trailing unit axis. -/
theorem unitCol_apply {α : Type} (y : S4x4096.Idx → α) (b : Fin 4) (s : Fin 4096) (u : Fin 1) :
    broadcastInDim S4x4096x1 ![0, 1] bcast_S4x4096_S4x4096x1_0_1 y (ix3 b s u) = y (ix2 b s) :=
  broadcastInDim_apply _ bcast_S4x4096_S4x4096x1_0_1 y (ix3 b s u) (ix2 b s) (fun a => match a with
    | ⟨0, _⟩ => by show b.val = if (4 : Nat) = 1 then 0 else b.val; rw [if_neg (by decide)]
    | ⟨1, _⟩ => by show s.val = if (4096 : Nat) = 1 then 0 else s.val; rw [if_neg (by decide)])

/-- A [4, 4096, 1] column repeated along the feature axis. -/
theorem alongFeatures_apply {α : Type} (y : S4x4096x1.Idx → α) (b : Fin 4) (s : Fin 4096) (d : Fin 1024) :
    broadcastInDim S4x4096x1024 ![0, 1, 2] bcast_S4x4096x1_S4x4096x1024_0_1_2 y (ix3 b s d) = y (ix3 b s (0 : Fin 1)) :=
  broadcastInDim_apply _ bcast_S4x4096x1_S4x4096x1024_0_1_2 y (ix3 b s d) (ix3 b s (0 : Fin 1)) (fun a => match a with
    | ⟨0, _⟩ => by show b.val = if (4 : Nat) = 1 then 0 else b.val; rw [if_neg (by decide)]
    | ⟨1, _⟩ => by show s.val = if (4096 : Nat) = 1 then 0 else s.val; rw [if_neg (by decide)]
    | ⟨2, _⟩ => by show (0 : Nat) = if (1 : Nat) = 1 then 0 else d.val; rw [if_pos rfl])

/-- The indicator of an equality of words, converted to a float: 1 or 0. -/
theorem indicator_eq (D k : BitVec 32) :
    FloatOps.uitofp (F := Ideal) .f32 (IntOp.cmpi .eq D k) = if D = k then 1 else 0 := by
  show (((IntOp.cmpi .eq D k).toNat : ℝ) : EReal) = _
  by_cases h : D = k
  · simp [IntOp.cmpi, h]
  · simp [IntOp.cmpi, h]

/-! ## One expert's term -/

/-- One expert's term as the host spells it, for any slab offsets and any expert number. -/
def hostTerm (B : FVec Ideal S4x4096x1024 .f32) (Dm : IVec S4x4096 32) (W3 : FVec Ideal S8x32x1024 .f32)
    (W4 : FVec Ideal S8x1024x32 .f32) (o3 : Fin 3 → ℕ) (h3 : S8x32x1024.Slices o3 S1x32x1024) (o4 : Fin 3 → ℕ)
    (h4 : S8x1024x32.Slices o4 S1x1024x32) (kg : BitVec 32) : FVec Ideal S4x4096x1024 .f32 :=
  mulf (mulf (broadcastInDim S4x4096x1024 ![] bcast_S_S4x4096x1024 (constant S_ .f32 0x3DCCCCCD#32))
      (Host.dotGeneral dot_S4x4096x32_S1024x32_S4x4096x1024_2_1_01_0_n_n none
        (Host.dotGeneral dot_S4x4096x1024_S32x1024_S4x4096x32_2_1_01_0_n_n none B
          (shapeCast _ (extractStridedSlice S1x32x1024 o3 W3 h3) shapeCasts_S1x32x1024_S32x1024))
        (shapeCast _ (extractStridedSlice S1x1024x32 o4 W4 h4) shapeCasts_S1x1024x32_S1024x32)))
    (broadcastInDim S4x4096x1024 ![0, 1, 2] bcast_S4x4096x1_S4x4096x1024_0_1_2
      (uitofp .f32 (broadcastInDim S4x4096x1 ![0, 1] bcast_S4x4096_S4x4096x1_0_1
        (cmpi .eq Dm (broadcastInDim S4x4096 ![] bcast_S_S4x4096 (constantI S_ 32 kg))))))

/-- At (b, s, d), expert g's term is a tenth of its correction, gated by the token's domain word. -/
theorem hostTerm_apply (B : FVec Ideal S4x4096x1024 .f32) (Dm : IVec S4x4096 32) (W3 : FVec Ideal S8x32x1024 .f32)
    (W4 : FVec Ideal S8x1024x32 .f32) (g : Fin 8) (o3 : Fin 3 → ℕ) (h3 : S8x32x1024.Slices o3 S1x32x1024)
    (o4 : Fin 3 → ℕ) (h4 : S8x1024x32.Slices o4 S1x1024x32) (kg : BitVec 32)
    (e3 : o3 = ![g.val, 0, 0]) (e4 : o4 = ![g.val, 0, 0]) (ek : kg = BitVec.ofNat 32 g.val)
    (b : Fin 4) (s : Fin 4096) (d : Fin 1024) :
    hostTerm B Dm W3 W4 o3 h3 o4 h4 kg (ix3 b s d) = term B Dm W3 W4 b s d g := by
  subst e3 e4 ek
  unfold hostTerm term
  rw [mulf_apply, mulf_apply, splat3_apply, alongFeatures_apply, dotUp_apply]
  have hgate : (uitofp (F := Ideal) .f32 (broadcastInDim S4x4096x1 ![0, 1] bcast_S4x4096_S4x4096x1_0_1
        (cmpi .eq Dm (broadcastInDim S4x4096 ![] bcast_S_S4x4096 (constantI S_ 32 (BitVec.ofNat 32 g.val))))))
        (ix3 b s (0 : Fin 1)) = gate (Dm (ix2 b s)) g := by
    show FloatOps.uitofp (F := Ideal) .f32 (broadcastInDim S4x4096x1 ![0, 1] bcast_S4x4096_S4x4096x1_0_1
        (cmpi .eq Dm (broadcastInDim S4x4096 ![] bcast_S_S4x4096 (constantI S_ 32 (BitVec.ofNat 32 g.val))))
        (ix3 b s (0 : Fin 1))) = _
    rw [unitCol_apply]
    show FloatOps.uitofp (F := Ideal) .f32 (IntOp.cmpi .eq (Dm (ix2 b s))
        (broadcastInDim S4x4096 ![] bcast_S_S4x4096 (constantI S_ 32 (BitVec.ofNat 32 g.val)) (ix2 b s))) = _
    rw [splat2_apply, indicator_eq]
    rfl
  rw [hgate]
  refine congrArg (· * gate (Dm (ix2 b s)) g) ?_
  refine congrArg (tenth * ·) ?_
  unfold corr
  refine Finset.sum_congr rfl fun e _ => ?_
  have hup : (shapeCast _ (extractStridedSlice S1x1024x32 ![g.val, 0, 0] W4 h4) shapeCasts_S1x1024x32_S1024x32 :
      S1024x32.Idx → EReal) (ridx_main_v23 (ix3 b s d) e) = W4 (ix3 g d e) := by
    have hi : ridx_main_v23 (ix3 b s d) e = ix2 d e := funext fun a => Fin.ext (by
      match a with
      | ⟨0, _⟩ => rfl
      | ⟨1, _⟩ => rfl)
    rw [hi]
    exact Cert.Lib.Projection.slab_apply ![g.val, 0, 0] W4 h4 shapeCasts_S1x1024x32_S1024x32 g rfl rfl rfl d e
  rw [hup, dotDown_apply]
  refine congrArg (· * W4 (ix3 g d e)) ?_
  unfold down
  refine Finset.sum_congr rfl fun k _ => ?_
  have hl : lidx_main_v20 (lidx_main_v23 (ix3 b s d) e) k = ix3 b s k := funext fun a => Fin.ext (by
    match a with
    | ⟨0, _⟩ => rfl
    | ⟨1, _⟩ => rfl
    | ⟨2, _⟩ => rfl)
  have hr : ridx_main_v20 (lidx_main_v23 (ix3 b s d) e) k = ix2 e k := funext fun a => Fin.ext (by
    match a with
    | ⟨0, _⟩ => rfl
    | ⟨1, _⟩ => rfl)
  rw [hl, hr]
  refine congrArg (B (ix3 b s k) * ·) ?_
  exact Cert.Lib.Projection.slab_apply ![g.val, 0, 0] W3 h3 shapeCasts_S1x32x1024_S32x1024 g rfl rfl rfl e k

end Cert.Moe.Ref

end
-- ==== Proof.RefFold.lean ====
/-
  The reference's result, read at an entry.

  The last value the reference computes is the embedding with the eight experts' terms added in order; each term,
  read at (b, s, d) by RefTerm.lean, is that expert's term of the sequential arrangement of Spec.lean. The embedding and
  the per-token domain words are the two gathers at the token numbers.
-/
import proofs.«180530_j77438260347449_1_alg».proof.Proof.RefTerm

open scoped BigOperators

noncomputable section

namespace Cert.Moe.Ref

open Cert.ReferenceIdeal Cert.ReferenceIdeal.Gen Cert.ReferenceIdeal.Read Cert.ReferenceIdeal.Value
open Idealize.ShloMosaic Idealize.ShloMosaic.TcCoe Idealize.SL.Sem Idealize.ShloMosaic.ValueIdx Cert.Moe

/-- The reference's result at (b, s, d) is the sequential arrangement over the gathered embedding and domain words. -/
theorem ref_apply (x0 : IVec S4x4096 32) (x1 : IVec S50257 32) (x2 : FVec Ideal S50257x1024 .f32)
    (x3 : FVec Ideal S8x32x1024 .f32) (x4 : FVec Ideal S8x1024x32 .f32) (b : Fin 4) (s : Fin 4096) (d : Fin 1024) :
    val_main_v133 (F := Ideal) x0 x1 x2 x3 x4 (ix3 b s d)
      = seqForm (val_main_v6 (F := Ideal) x0 x2) (val_main_v13 (F := Ideal) x0 x1) x3 x4 b s d := by
  have e0 : val_main_v27 (F := Ideal) x0 x1 x2 x3 x4 (ix3 b s d)
      = term (val_main_v6 (F := Ideal) x0 x2) (val_main_v13 (F := Ideal) x0 x1) x3 x4 b s d 0 :=
    hostTerm_apply (val_main_v6 (F := Ideal) x0 x2) (val_main_v13 (F := Ideal) x0 x1) x3 x4 0 ![0, 0, 0]
      slices_S8x32x1024_S1x32x1024_0_0_0 ![0, 0, 0] slices_S8x1024x32_S1x1024x32_0_0_0 0#32 rfl rfl rfl b s d
  have e1 : val_main_v42 (F := Ideal) x0 x1 x2 x3 x4 (ix3 b s d)
      = term (val_main_v6 (F := Ideal) x0 x2) (val_main_v13 (F := Ideal) x0 x1) x3 x4 b s d 1 :=
    hostTerm_apply (val_main_v6 (F := Ideal) x0 x2) (val_main_v13 (F := Ideal) x0 x1) x3 x4 1 ![1, 0, 0]
      slices_S8x32x1024_S1x32x1024_1_0_0 ![1, 0, 0] slices_S8x1024x32_S1x1024x32_1_0_0 1#32 rfl rfl rfl b s d
  have e2 : val_main_v57 (F := Ideal) x0 x1 x2 x3 x4 (ix3 b s d)
      = term (val_main_v6 (F := Ideal) x0 x2) (val_main_v13 (F := Ideal) x0 x1) x3 x4 b s d 2 :=
    hostTerm_apply (val_main_v6 (F := Ideal) x0 x2) (val_main_v13 (F := Ideal) x0 x1) x3 x4 2 ![2, 0, 0]
      slices_S8x32x1024_S1x32x1024_2_0_0 ![2, 0, 0] slices_S8x1024x32_S1x1024x32_2_0_0 2#32 rfl rfl rfl b s d
  have e3 : val_main_v72 (F := Ideal) x0 x1 x2 x3 x4 (ix3 b s d)
      = term (val_main_v6 (F := Ideal) x0 x2) (val_main_v13 (F := Ideal) x0 x1) x3 x4 b s d 3 :=
    hostTerm_apply (val_main_v6 (F := Ideal) x0 x2) (val_main_v13 (F := Ideal) x0 x1) x3 x4 3 ![3, 0, 0]
      slices_S8x32x1024_S1x32x1024_3_0_0 ![3, 0, 0] slices_S8x1024x32_S1x1024x32_3_0_0 3#32 rfl rfl rfl b s d
  have e4 : val_main_v87 (F := Ideal) x0 x1 x2 x3 x4 (ix3 b s d)
      = term (val_main_v6 (F := Ideal) x0 x2) (val_main_v13 (F := Ideal) x0 x1) x3 x4 b s d 4 :=
    hostTerm_apply (val_main_v6 (F := Ideal) x0 x2) (val_main_v13 (F := Ideal) x0 x1) x3 x4 4 ![4, 0, 0]
      slices_S8x32x1024_S1x32x1024_4_0_0 ![4, 0, 0] slices_S8x1024x32_S1x1024x32_4_0_0 4#32 rfl rfl rfl b s d
  have e5 : val_main_v102 (F := Ideal) x0 x1 x2 x3 x4 (ix3 b s d)
      = term (val_main_v6 (F := Ideal) x0 x2) (val_main_v13 (F := Ideal) x0 x1) x3 x4 b s d 5 :=
    hostTerm_apply (val_main_v6 (F := Ideal) x0 x2) (val_main_v13 (F := Ideal) x0 x1) x3 x4 5 ![5, 0, 0]
      slices_S8x32x1024_S1x32x1024_5_0_0 ![5, 0, 0] slices_S8x1024x32_S1x1024x32_5_0_0 5#32 rfl rfl rfl b s d
  have e6 : val_main_v117 (F := Ideal) x0 x1 x2 x3 x4 (ix3 b s d)
      = term (val_main_v6 (F := Ideal) x0 x2) (val_main_v13 (F := Ideal) x0 x1) x3 x4 b s d 6 :=
    hostTerm_apply (val_main_v6 (F := Ideal) x0 x2) (val_main_v13 (F := Ideal) x0 x1) x3 x4 6 ![6, 0, 0]
      slices_S8x32x1024_S1x32x1024_6_0_0 ![6, 0, 0] slices_S8x1024x32_S1x1024x32_6_0_0 6#32 rfl rfl rfl b s d
  have e7 : val_main_v132 (F := Ideal) x0 x1 x2 x3 x4 (ix3 b s d)
      = term (val_main_v6 (F := Ideal) x0 x2) (val_main_v13 (F := Ideal) x0 x1) x3 x4 b s d 7 :=
    hostTerm_apply (val_main_v6 (F := Ideal) x0 x2) (val_main_v13 (F := Ideal) x0 x1) x3 x4 7 ![7, 0, 0]
      slices_S8x32x1024_S1x32x1024_7_0_0 ![7, 0, 0] slices_S8x1024x32_S1x1024x32_7_0_0 7#32 rfl rfl rfl b s d
  unfold seqForm
  rw [← e0, ← e1, ← e2, ← e3, ← e4, ← e5, ← e6, ← e7]
  rfl

end Cert.Moe.Ref

end
-- ==== Proof.LibFiniteEntries.lean ====
/-
  "Every entry is finite", read: at any shape, if the conjunction over a whole float array of "the entry's absolute
  value is below +∞" is 1, every entry of the array is a real number.

  This is one conjunct of a precondition of the form all(|x| < +∞): the comparison of |x| = max(x, −x) with the
  literal +∞ at every entry, reduced by "and" over every axis into a scalar. A reduction by "and" that is 1 had a 1 at
  every entry; the comparison is 1 exactly when max(x, −x) < +∞; and that holds exactly when x is neither infinity.
-/
import proofs.«180530_j77438260347449_1_alg».proof.Proof.LibRealEntries
import Idealize.ShloMosaic.Lib.ReduceAll
import Idealize.ShloMosaic.Lib.ValueIdx

noncomputable section

namespace Cert.Lib.FiniteEntries

open Idealize.ShloMosaic Idealize.ShloMosaic.ValueIdx Cert.Lib.RealEntries

/-- The scalar shape has one index. -/
instance scalarIdx_subsingleton : Subsingleton (⟨0, ![]⟩ : Shape).Idx := ⟨fun a b => funext fun d => d.elim0⟩

/-- The literal +∞. -/
theorem inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => exact absurd h (by simp)
  | coe r => exact ⟨r, rfl⟩
  | top => exact absurd h (by simp)

/-- If "every |entry| < +∞", reduced by "and" over the whole array, is 1, every entry is real. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : IsReal (x i) := by
  have hi := Host.reduce_andi_all _ _ hr hu ix0 h i
  have hi' : Ideal.cmp .olt (max (x i) (-(x i))) (Ideal.ofBits .f32 0x7F800000#32) = 1#1 := hi
  rw [inf_f32] at hi'
  refine isReal_of_abs_lt_top (x i) ?_
  by_contra hn
  have h0 : Ideal.cmp .olt (max (x i) (-(x i))) ⊤ = 0#1 := by simp [Ideal.cmp, hn]
  rw [h0] at hi'
  exact absurd hi' (by decide)

end Cert.Lib.FiniteEntries

end
-- ==== Proof.Finite.lean ====
/-
  The precondition, read: every entry of the embedding table and of both stacks of expert weights is a real number.

  The precondition is the conjunction of three statements of the form "every |entry| is below +∞", each reduced by
  "and" over a whole array. A conjunction of one-bit words is 1 exactly when both are, and each conjunct gives the
  entries of its array.
-/
import proofs.«180530_j77438260347449_1_alg».proof.Proof.Gen.Pre_finite_inputs
import proofs.«180530_j77438260347449_1_alg».proof.Proof.LibFiniteEntries
import Idealize.ShloMosaic.Lib.Affine

noncomputable section

namespace Cert.Moe

open Cert.Pre_finite_inputs Cert.Pre_finite_inputs.Gen Idealize.ShloMosaic Idealize.ShloMosaic.ValueIdx
open Cert.Lib.RealEntries Cert.Lib.FiniteEntries

/-- Under the precondition the three float arguments have real entries. -/
theorem real_of_pre (a0 : IVec S4x4096 32) (a1 : IVec S50257 32) (a2 : FVec Ideal S50257x1024 .f32)
    (a3 : FVec Ideal S8x32x1024 .f32) (a4 : FVec Ideal S8x1024x32 .f32)
    (h : Cert.Pre_finite_inputs.fn (F := Ideal) a0 a1 a2 a3 a4 = fun _ => 1#1) :
    (∀ i, IsReal (a2 i)) ∧ (∀ i, IsReal (a3 i)) ∧ (∀ i, IsReal (a4 i)) := by
  have h0 := congrFun h ix0
  dsimp only [fn] at h0
  obtain ⟨h12, h3⟩ := IntOp.andi_eq_one.mp h0
  obtain ⟨h1, h2⟩ := IntOp.andi_eq_one.mp h12
  exact ⟨real_of_all a2 _ _ _ h1, real_of_all a3 _ _ _ h2, real_of_all a4 _ _ _ h3⟩

end Cert.Moe

end
-- ==== Proof.LibRealHost.lean ====
/-
  General lemmas, at any shapes and any dimension numbers, over the extended reals: host operations that only move or
  add entries keep real entries real. A reshape and a gather read entries of their operand; a scatter with an add body is
  the operand's entry plus a finite sum of update entries.
-/
import Idealize.ShloMosaic.PureOps.Ideal
import proofs.«180530_j77438260347449_1_alg».proof.Proof.LibRealEntries

open scoped BigOperators

noncomputable section

namespace Cert.Lib.RealHost

open Idealize.ShloMosaic Cert.Lib.RealEntries

/-- A reshape of an array of real entries has real entries. -/
theorem isReal_shapeCast {s t : Shape} (x : s.Idx → EReal) (h : s.ShapeCasts t) (hx : ∀ i, IsReal (x i)) (j : t.Idx) :
    IsReal (shapeCast t x h j) := hx _

/-- A gather from an array of real entries has real entries, whatever the start indices. -/
theorem isReal_gather {s si t : Shape} {w : Nat} (d : GatherDims s si t) (x : s.Idx → EReal) (idx : IVec si w)
    (hx : ∀ i, IsReal (x i)) (j : t.Idx) : IsReal (Host.gather d x idx j) := hx _

/-- An accumulating scatter of real updates into real entries has real entries, whatever the scatter indices. -/
theorem isReal_hostScatterAdd {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact IsReal.add (hx i) (IsReal.sum _ _ fun j => hu j)

/-- The same for the host's scatter-add as programs spell it. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) :=
  isReal_hostScatterAdd d x idx upd hx hu i

end Cert.Lib.RealHost

end
-- ==== Proof.Bridge.lean ====
/-
  The two programs compute one function.

  Both gather the same embedding rows and the same domain words at the token numbers. Over those, the kernel program's
  result is the concatenated arrangement (KernelRun.lean) and the reference's the sequential one (RefFold.lean); on real
  entries they are equal (Spec.lean). The precondition makes the embedding table and both stacks of expert weights
  real (Finite.lean), and a gather of real entries has real entries.
-/
import proofs.«180530_j77438260347449_1_alg».proof.Proof.KernelRun
import proofs.«180530_j77438260347449_1_alg».proof.Proof.RefFold
import proofs.«180530_j77438260347449_1_alg».proof.Proof.Finite
import proofs.«180530_j77438260347449_1_alg».proof.Proof.LibRealHost

noncomputable section

namespace Cert.Moe

open Idealize.ShloMosaic Idealize.ShloMosaic.TcCoe Idealize.SL.Sem Idealize.ShloMosaic.ValueIdx
open Cert.Lib.RealEntries

/-- Under the precondition, the kernel program's result array is the reference's result array, both as functions of
    the same five arguments. -/
theorem result_eq (a0 : IVec ST 32) (a1 : IVec ⟨1, ![50257]⟩ 32) (a2 : FVec Ideal ⟨2, ![50257, 1024]⟩ .f32)
    (a3 : FVec Ideal SE .f32) (a4 : FVec Ideal SP .f32)
    (h2 : ∀ i, IsReal (a2 i)) (h3 : ∀ i, IsReal (a3 i)) (h4 : ∀ i, IsReal (a4 i)) (b : Fin 4) (s : Fin 4096) (d : Fin 1024) :
    catForm (Ker.baseK a0 a2) (Ker.domK a0 a1) a3 a4 b s d
      = Cert.ReferenceIdeal.Read.val_main_v133 (F := Ideal) a0 a1 a2 a3 a4 (ix3 b s d) := by
  rw [Ref.ref_apply]
  have hB : Ker.baseK a0 a2 = Cert.ReferenceIdeal.Read.val_main_v6 (F := Ideal) a0 a2 := rfl
  have hD : Ker.domK a0 a1 = Cert.ReferenceIdeal.Read.val_main_v13 (F := Ideal) a0 a1 := rfl
  rw [← hB, ← hD]
  exact catForm_eq_seqForm _ _ _ _ (fun i => Cert.Lib.RealHost.isReal_gather _ a2 _ h2 i) h3 h4 b s d

end Cert.Moe

end
-- ==== Proof.lean ====
/-
  A routed residual correction, two ways.

  Every token has an embedding row and a domain word; eight small experts each project a row down to 32 numbers and
  back up, and a token receives a tenth of the correction of the expert its domain word names (none when the word names
  no expert). The reference adds the eight experts' corrections in turn, each multiplied by the 0/1 indicator of its
  domain. The kernel lays the eight experts side by side as 256 columns, zeroes the columns of the experts a token does
  not belong to, and projects back up once, block of 1024 tokens by block. Read as extended reals both results are,
  entry by entry, the embedding plus a tenth of the token's own expert's correction: a sum over 256 columns is the sum
  over 8 blocks of 32, and with every entry of the embedding table and of the experts' weights a real number (the
  precondition) the factor of a tenth and the indicators distribute over those sums.

  The three frames are the generated ones (the reference's from its generated run); the idealization rewrote nothing.
-/
import proofs.«180530_j77438260347449_1_alg».proof.Defs
import proofs.«180530_j77438260347449_1_alg».proof.Proof.Gen.Kernel
import proofs.«180530_j77438260347449_1_alg».proof.Proof.Gen.Kernel.Frame
import proofs.«180530_j77438260347449_1_alg».proof.Proof.Gen.KernelIdeal
import proofs.«180530_j77438260347449_1_alg».proof.Proof.Gen.KernelIdeal.Frame
import proofs.«180530_j77438260347449_1_alg».proof.Proof.Gen.ReferenceIdeal
import proofs.«180530_j77438260347449_1_alg».proof.Proof.Gen.ReferenceIdeal.Run
import proofs.«180530_j77438260347449_1_alg».proof.Proof.Gen.ReferenceIdeal.Read
import proofs.«180530_j77438260347449_1_alg».proof.Proof.Gen.Pre_finite_inputs
import proofs.«180530_j77438260347449_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the reference's last value of the (shared) arguments. -/
theorem algebraic : Cert.algebraic_KernelIdeal_ReferenceIdeal := by
  intro m ρ m' ρ' hpre hagree
  refine ⟨fun c => Cert.ReferenceIdeal.Read.val_main_v133 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.Moe.Ker.run m ρ)
    obtain ⟨h2, h3, h4⟩ := Cert.Moe.real_of_pre _ _ _ _ _ (hpre c)
    funext i
    obtain ⟨b, s, d, rfl⟩ : ∃ (b : Fin 4) (s : Fin 4096) (d : Fin 1024), i = ix3 b s d := ⟨i 0, i 1, i 2, eq_ix3 i⟩
    rw [Cert.Moe.Ker.result_apply]
    exact Cert.Moe.result_eq _ _ _ _ _ h2 h3 h4 b s d
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v133_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
